-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S32 .f32) (main_arg17 : FVec F S1x32 .f32) (main_arg18 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S1x32 .f32 := Host.absf main_arg17
  let main_cst_28 : FVec F S_ .f32 := constant S_ .f32 0x7F800000#32
  let main_v75 : FVec F S1x32 .f32 := broadcastInDim S1x32 ![] bcast_S_S1x32 main_cst_28
  let main_v76 : IVec S1x32 1 := cmpf .olt main_v74 main_v75
  let main_c_29 : IVec S_ 1 := constantI S_ 1 1#1
  let main_v77 : IVec S_ 1 := (fun x v => Host.reduce IntOp.andi x v reducesTo_S1x32_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S64x128 .f32) (main_arg14 : FVec F S64 .f32) (main_arg15 : FVec F S32x64 .f32) (main_arg16 : FVec F S32 .f32) (main_arg17 : FVec F S1x32 .f32) (main_arg18 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S32x64 .f32 := Host.absf main_arg15
  let main_cst_24 : FVec F S_ .f32 := constant S_ .f32 0x7F800000#32
  let main_v65 : FVec F S32x64 .f32 := broadcastInDim S32x64 ![] bcast_S_S32x64 main_cst_24
  let main_v66 : IVec S32x64 1 := cmpf .olt main_v64 main_v65
  let main_c_25 : IVec S_ 1 := constantI S_ 1 1#1
  let main_v67 : IVec S_ 1 := (fun x v => Host.reduce IntOp.andi x v reducesTo_S32x64_S_d0_1 h_S_) main_v66 main_c_25
  fn_part4 (F := F) main_arg16 main_arg17 main_arg18 main_v63 main_v67

def fn_part2 {F : FTy → Type} [FloatOps F] (main_arg9 : FVec F S128 .f32) (main_arg10 : FVec F S64x128 .f32) (main_arg11 : FVec F S64 .f32) (main_arg12 : FVec F S64x128 .f32) (main_arg13 : FVec F S64x128 .f32) (main_arg14 : FVec F S64 .f32) (main_arg15 : FVec F S32x64 .f32) (main_arg16 : FVec F S32 .f32) (main_arg17 : FVec F S1x32 .f32) (main_arg18 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S64x128 .f32) (main_arg11 : FVec F S64 .f32) (main_arg12 : FVec F S64x128 .f32) (main_arg13 : FVec F S64x128 .f32) (main_arg14 : FVec F S64 .f32) (main_arg15 : FVec F S32x64 .f32) (main_arg16 : FVec F S32 .f32) (main_arg17 : FVec F S1x32 .f32) (main_arg18 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S2x800000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S64x128 .f32) (main_arg11 : FVec F S64 .f32) (main_arg12 : FVec F S64x128 .f32) (main_arg13 : FVec F S64x128 .f32) (main_arg14 : FVec F S64 .f32) (main_arg15 : FVec F S32x64 .f32) (main_arg16 : FVec F S32 .f32) (main_arg17 : FVec F S1x32 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩
abbrev S128x64 : Shape := ⟨2, ![128, 64]⟩
abbrev S50000x64 : Shape := ⟨2, ![50000, 64]⟩
abbrev S5000x64 : Shape := ⟨2, ![5000, 64]⟩
abbrev S1x64 : Shape := ⟨2, ![1, 64]⟩
abbrev S800000x64 : Shape := ⟨2, ![800000, 64]⟩
abbrev S64x64 : Shape := ⟨2, ![64, 64]⟩
abbrev S64x32 : Shape := ⟨2, ![64, 32]⟩
abbrev S32x1 : Shape := ⟨2, ![32, 1]⟩
abbrev S10000x64 : Shape := ⟨2, ![10000, 64]⟩
abbrev S10000x1 : Shape := ⟨2, ![10000, 1]⟩
abbrev S10000x32 : Shape := ⟨2, ![10000, 32]⟩
abbrev S1x1 : Shape := ⟨2, ![1, 1]⟩

abbrev nBuf : Space → Nat
  | .hbm => 108
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S64x128, .f32⟩
  | .hbm, ⟨13, _⟩ => ⟨S64x128, .f32⟩
  | .hbm, ⟨14, _⟩ => ⟨S64, .f32⟩
  | .hbm, ⟨15, _⟩ => ⟨S32x64, .f32⟩
  | .hbm, ⟨16, _⟩ => ⟨S32, .f32⟩
  | .hbm, ⟨17, _⟩ => ⟨S1x32, .f32⟩
  | .hbm, ⟨18, _⟩ => ⟨S1, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S128x128, .f32⟩
  | .hbm, ⟨56, _⟩ => ⟨S128x128, .bf16⟩
  | .hbm, ⟨57, _⟩ => ⟨S128x128, .f32⟩
  | .hbm, ⟨58, _⟩ => ⟨S128x128, .bf16⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x64, .f32⟩
  | .hbm, ⟨77, _⟩ => ⟨S128x64, .bf16⟩
  | .hbm, ⟨78, _⟩ => ⟨S128x64, .f32⟩
  | .hbm, ⟨79, _⟩ => ⟨S128x64, .bf16⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x64, .f32⟩
  | .hbm, ⟨99, _⟩ => ⟨S128x64, .f32⟩
  | .hbm, ⟨100, _⟩ => ⟨S128x64, .bf16⟩
  | .hbm, ⟨101, _⟩ => ⟨S64x64, .bf16⟩
  | .hbm, ⟨102, _⟩ => ⟨S64x64, .bf16⟩
  | .hbm, ⟨103, _⟩ => ⟨S64x32, .f32⟩
  | .hbm, ⟨104, _⟩ => ⟨S64x32, .bf16⟩
  | .hbm, ⟨105, _⟩ => ⟨S32x1, .f32⟩
  | .hbm, ⟨106, _⟩ => ⟨S32x1, .bf16⟩
  | .hbm, ⟨107, _⟩ => ⟨S800000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .bf16⟩
  | .local _ .vmem, ⟨18, _⟩ => ⟨S64, .f32⟩
  | .local _ .vmem, ⟨19, _⟩ => ⟨S128x64, .bf16⟩
  | .local _ .vmem, ⟨20, _⟩ => ⟨S5000x64, .f32⟩
  | .local _ .vmem, ⟨21, _⟩ => ⟨S5000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .bf16⟩
  | .local _ .vmem, ⟨27, _⟩ => ⟨S64x64, .bf16⟩
  | .local _ .vmem, ⟨28, _⟩ => ⟨S64, .f32⟩
  | .local _ .vmem, ⟨29, _⟩ => ⟨S64x32, .bf16⟩
  | .local _ .vmem, ⟨30, _⟩ => ⟨S32, .f32⟩
  | .local _ .vmem, ⟨31, _⟩ => ⟨S32x1, .bf16⟩
  | .local _ .vmem, ⟨32, _⟩ => ⟨S1, .f32⟩
  | .local _ .vmem, ⟨33, _⟩ => ⟨S10000x1, .f32⟩
  | .local _ .vmem, ⟨34, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_8 : Ref sig .tc := ⟨.hbm, 81, rfl⟩
abbrev main_v52 : Ref sig .tc := ⟨.hbm, 82, rfl⟩
abbrev main_v53 : Ref sig .tc := ⟨.hbm, 83, rfl⟩
abbrev main_c_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_c_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x32 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x1 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S128x64_S64x64_0_0 : S128x64.Slices ![0, 0] S64x64
  slices_S128x64_S64x64_64_0 : S128x64.Slices ![64, 0] S64x64
  transposes_S32x64_S64x32_1_0 : S32x64.Transposes [1, 0] S64x32
  transposes_S1x32_S32x1_1_0 : S1x32.Transposes [1, 0] S32x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S800000x64.size a
  hwx2_0 : ∀ i : grid2.Coords, EltTy.bits .f32 = 32 ∨ (Rect.block (s := S800000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .bf16 = 32 ∨ (Rect.block (s := S64x32) S64x32.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x1.size a ≤ S32x1.size a
  hwx2_7 : ∀ i : grid2.Coords, EltTy.bits .bf16 = 32 ∨ (Rect.block (s := S32x1) S32x1.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x1.size a ≤ S800000x1.size a
  hwx2_9 : ∀ i : grid2.Coords, EltTy.bits .f32 = 32 ∨ (Rect.block (s := S800000x1) S10000x1.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S64x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S32x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v74) S10000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩
abbrev S64x32 : Shape := ⟨2, ![64, 32]⟩
abbrev S800000x32 : Shape := ⟨2, ![800000, 32]⟩
abbrev S32x1 : Shape := ⟨2, ![32, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S64x128, .f32⟩
  | 11 => ⟨S64, .f32⟩
  | 12 => ⟨S64x128, .f32⟩
  | 13 => ⟨S64x128, .f32⟩
  | 14 => ⟨S64, .f32⟩
  | 15 => ⟨S32x64, .f32⟩
  | 16 => ⟨S32, .f32⟩
  | 17 => ⟨S1x32, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S128x128, .f32⟩
  | 49 => ⟨S50000x128, .f32⟩
  | 50 => ⟨S1x128, .f32⟩
  | 51 => ⟨S50000x128, .f32⟩
  | 52 => ⟨S50000x128, .f32⟩
  | 53 => ⟨S128x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S_, .f32⟩
  | 89 => ⟨S800000, .f32⟩
  | 90 => ⟨S_, .f32⟩
  | 91 => ⟨S50000, .f32⟩
  | 92 => ⟨S800000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x128, .f32⟩
  | 99 => ⟨S50000x128, .f32⟩
  | 100 => ⟨S128x64, .f32⟩
  | 101 => ⟨S50000x64, .f32⟩
  | 102 => ⟨S1x64, .f32⟩
  | 103 => ⟨S50000x64, .f32⟩
  | 104 => ⟨S50000x64, .f32⟩
  | 105 => ⟨S128x64, .f32⟩
  | 106 => ⟨S50000x64, .f32⟩
  | 107 => ⟨S50000x64, .f32⟩
  | 108 => ⟨S1x800000, .i32⟩
  | 109 => ⟨S800000, .i32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S1x800000, .i32⟩
  | 120 => ⟨S800000, .i32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x64, .f32⟩
  | 2 => ⟨S800000x128, .f32⟩
  | 3 => ⟨S128x64, .f32⟩
  | 4 => ⟨S800000x64, .f32⟩
  | 5 => ⟨S1x64, .f32⟩
  | 6 => ⟨S800000x64, .f32⟩
  | 7 => ⟨S800000x64, .f32⟩
  | 8 => ⟨S_, .f32⟩
  | 9 => ⟨S800000x64, .f32⟩
  | 10 => ⟨S800000x64, .f32⟩
  | 11 => ⟨S64x32, .f32⟩
  | 12 => ⟨S800000x32, .f32⟩
  | 13 => ⟨S1x32, .f32⟩
  | 14 => ⟨S800000x32, .f32⟩
  | 15 => ⟨S800000x32, .f32⟩
  | 16 => ⟨S_, .f32⟩
  | 17 => ⟨S800000x32, .f32⟩
  | 18 => ⟨S800000x32, .f32⟩
  | 19 => ⟨S32x1, .f32⟩
  | 20 => ⟨S800000x1, .f32⟩
  | 21 => ⟨S1x1, .f32⟩
  | 22 => ⟨S800000x1, .f32⟩
  | 23 => ⟨S800000x1, .f32⟩
  | 24 => ⟨S800000x1, .f32⟩
  | 25 => ⟨S800000x1, .f32⟩
  | 26 => ⟨S_, .f32⟩
  | 27 => ⟨S800000x1, .f32⟩
  | 28 => ⟨S800000x1, .f32⟩
  | 29 => ⟨S_, .f32⟩
  | 30 => ⟨S800000x1, .f32⟩
  | 31 => ⟨S800000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call0_cst : Ref sig .tc := ⟨.hbm, 72, rfl⟩
abbrev main_call0_v0 : Ref sig .tc := ⟨.hbm, 73, rfl⟩
abbrev main_v46 : Ref sig .tc := ⟨.hbm, 74, rfl⟩
abbrev main_c_5 : Ref sig .tc := ⟨.hbm, 75, rfl⟩
abbrev main_v47 : Ref sig .tc := ⟨.hbm, 76, rfl⟩
abbrev main_v48 : Ref sig .tc := ⟨.hbm, 77, rfl⟩
abbrev main_c_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_7 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_11 : Ref sig .tc := ⟨.hbm, 110, rfl⟩
abbrev main_v76 : Ref sig .tc := ⟨.hbm, 111, rfl⟩
abbrev main_v77 : Ref sig .tc := ⟨.hbm, 112, rfl⟩
abbrev main_c_12 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_13 : Ref sig .tc := ⟨.hbm, 121, rfl⟩
abbrev main_v85 : Ref sig .tc := ⟨.hbm, 122, rfl⟩
abbrev main_v86 : Ref sig .tc := ⟨.hbm, 123, rfl⟩
abbrev main_c_14 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_call1_cst : Ref sig .tc := ⟨.hbm, 136, rfl⟩
abbrev main_call1_v0 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_call2_cst : Ref sig .tc := ⟨.hbm, 144, rfl⟩
abbrev main_call2_v0 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_15 : Ref sig .tc := ⟨.hbm, 154, rfl⟩
abbrev main_v112 : Ref sig .tc := ⟨.hbm, 155, rfl⟩
abbrev main_v113 : Ref sig .tc := ⟨.hbm, 156, rfl⟩
abbrev main_cst_16 : Ref sig .tc := ⟨.hbm, 157, rfl⟩
abbrev main_v114 : Ref sig .tc := ⟨.hbm, 158, rfl⟩
abbrev main_v115 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S800000x64_S800000x64_S800000x128_d1 : Shape.Concatenates [S800000x64, S800000x64] S800000x128 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S32x64_S64x32_1_0 : S32x64.Transposes [1, 0] S64x32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  transposes_S1x32_S32x1_1_0 : S1x32.Transposes [1, 0] S32x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x32_S800000x32_1_0_0_1_n_n_wf : DotDims.WF S800000x64 S64x32 S800000x32 [1] [0] [0] [1] [] []
  dot_S800000x32_S32x1_S800000x1_1_0_0_1_n_n_wf : DotDims.WF S800000x32 S32x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf

class Facts : Prop extends Facts₀ where

variable [Facts]
-- ==== Proof.KernelRun.lean ====
/-
  The run of the three-stage program with its RESULT named: every weakly fair execution terminates, nothing faults,
  the argument arrays end as launched, and the result array ends holding what the third stage's write-backs leave,
  `(dat2 (V5 m ρ) c).arrAt 9 N` — the third pipeline's output array after all its grid points, entered from the
  contents `V5` that the host operations and the first two stages left.
-/
import proofs.«100353_j30889404793607_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array and the arguments named. -/
theorem run_value : θ_run defs (onTc (τ := τ) (main (F := F))) ⟨m, fun _ => 0, ρ⟩ (fun r => ∀ c : Dev nD,
      r.2.mem ((c.tc : Thread nD τ).loc main_v74) = (dat2 (V5 m ρ) c).arrAt 9 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v74 (by decide))).trans (W6_arr m ρ c 9),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.RunValue

end
-- ==== Proof.HostChains.lean ====
/-
  What the host operations between the stages compute, as named functions of the argument arrays.

  The program prepares each stage's operands on the host: the two rows of an edge list (sources, destinations),
  an index normalised into range (a negative index counts from the end), the gather of the rows of a table at
  the sources, the sum of those rows at the destinations (`aggr`), the in-degree (`cnt`), its clamped reciprocal
  (`inv`), the mean as the sum times that reciprocal (`mean`), and the weights transposed. Each buffer a stage is entered
  with is one of these functions of the arguments (or of the previous stage's result): the lemmas below read them off
  the fold of the host operations over the launch memory, stretch by stretch.
-/
import proofs.«100353_j30889404793607_2_alg».proof.Proof.Gen.KernelIdeal.Frame
import Idealize.ShloMosaic.Lib.StableHlo.Run
import Idealize.ShloMosaic.PureOps.Ideal.Laws
import Idealize.ShloMosaic.Lib.ValueIdx

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

abbrev EdgeList : Type := (⟨S2x800000, .i32⟩ : BufTy).Contents (Elt Ideal)
abbrev IdxVec : Type := (⟨S800000, .i32⟩ : BufTy).Contents (Elt Ideal)

/-- Row 0 and row 1 of a two-row index array, as vectors. -/
def row0 (e : EdgeList) : IdxVec :=
  shapeCast S800000 (extractStridedSlice S1x800000 ![0, 0] e slices_S2x800000_S1x800000_0_0) shapeCasts_S1x800000_S800000
def row1 (e : EdgeList) : IdxVec :=
  shapeCast S800000 (extractStridedSlice S1x800000 ![1, 0] e slices_S2x800000_S1x800000_1_0) shapeCasts_S1x800000_S800000

/-- An index vector as one column of start indices. -/
def col (v : IdxVec) : (⟨S800000x1, .i32⟩ : BufTy).Contents (Elt Ideal) :=
  broadcastInDim S800000x1 ![0] bcast_S800000_S800000x1_0 v

/-- A negative index counts from the end of the 50000 rows. -/
def norm (v : IdxVec) : IdxVec :=
  select (cmpi .slt v (broadcastInDim S800000 ![] bcast_S_S800000 (constantI S_ 32 0#32)))
    (addi v (broadcastInDim S800000 ![] bcast_S_S800000 (constantI S_ 32 50000#32))) v

/-- The in-degree: ones summed at the destinations. -/
def cnt (e : EdgeList) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32)) (col (row1 e))
    (broadcastInDim S800000 ![] bcast_S_S800000 (constant (F := Ideal) S_ .f32 0x3F800000#32))

/-- The rows of `feat` at the sources `src`, summed at the destinations `dst`. -/
def aggrWith (src dst : IdxVec) (feat : (⟨S50000x128, .f32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32)) (col dst)
    (Host.gather gather_S50000x128_S800000x1_S800000x128_1_0_n_n_0_1_1128 feat (col (norm src)))

/-- The rows of `feat` at the edges' sources, summed at their destinations. -/
def aggr (e : EdgeList) (feat : (⟨S50000x128, .f32⟩ : BufTy).Contents (Elt Ideal)) : (⟨S50000x128, .f32⟩ : BufTy).Contents (Elt Ideal) :=
  aggrWith (row0 e) (row1 e) feat

/-- The reciprocal of the in-degree clamped below at one. -/
def inv (e : EdgeList) : (⟨S50000, .f32⟩ : BufTy).Contents (Elt Ideal) :=
  Host.divf (broadcastInDim S50000 ![] bcast_S_S50000 (constant (F := Ideal) S_ .f32 0x3F800000#32))
    (maximumf (cnt e) (broadcastInDim S50000 ![] bcast_S_S50000 (constant (F := Ideal) S_ .f32 0x3F800000#32)))

/-- A matrix times a vector of per-row factors, repeated along the row. -/
def meanWith (iv : (⟨S50000, .f32⟩ : BufTy).Contents (Elt Ideal)) (S : (⟨S50000x128, .f32⟩ : BufTy).Contents (Elt Ideal)) : (⟨S50000x128, .f32⟩ : BufTy).Contents (Elt Ideal) :=
  mulf (F := Ideal) (φ := .f32) S (broadcastInDim S50000x128 ![0, 1] bcast_S50000x1_S50000x128_0_1
    (broadcastInDim S50000x1 ![0] bcast_S50000_S50000x1_0 iv))

/-- The mean as the program computes it: the summed rows times the reciprocal of the clamped in-degree. -/
def mean (e : EdgeList) (S : (⟨S50000x128, .f32⟩ : BufTy).Contents (Elt Ideal)) : (⟨S50000x128, .f32⟩ : BufTy).Contents (Elt Ideal) :=
  meanWith (inv e) S

/-- The rows of the embedding `z` at a vector of node indices. -/
def gat (v : IdxVec) (z : (⟨S50000x64, .f32⟩ : BufTy).Contents (Elt Ideal)) : (⟨S800000x64, .f32⟩ : BufTy).Contents (Elt Ideal) :=
  Host.gather gather_S50000x64_S800000x1_S800000x64_1_0_n_n_0_1_164 z (col (norm v))

variable (m : (ℓ : Loc nD τ sig) → Buf (Elt Ideal) ℓ) (ρ : Dev nD → PrngReg)

/-! ## The first stretch: from the launch memory to the first stage's entry -/

section Stretch0
variable (c : Dev nD)

theorem W1_v1 : W1 m ρ c (Proc.devRef .tc main_v1) = row0 (m ((c : Thread nD τ).loc main_arg1)) := by
  dsimp only [W1, hostOps0]; after_results; try rfl
theorem W1_v3 : W1 m ρ c (Proc.devRef .tc main_v3) = row1 (m ((c : Thread nD τ).loc main_arg1)) := by
  dsimp only [W1, hostOps0]; after_results; try rfl
theorem W1_v5 : W1 m ρ c (Proc.devRef .tc main_v5) = row0 (m ((c : Thread nD τ).loc main_arg2)) := by
  dsimp only [W1, hostOps0]; after_results; try rfl
theorem W1_v7 : W1 m ρ c (Proc.devRef .tc main_v7) = row1 (m ((c : Thread nD τ).loc main_arg2)) := by
  dsimp only [W1, hostOps0]; after_results; try rfl
theorem W1_v15 : W1 m ρ c (Proc.devRef .tc main_v15) = inv (m ((c : Thread nD τ).loc main_arg1)) := by
  dsimp only [W1, hostOps0]; after_results; try rfl
set_option maxHeartbeats 4000000 in
set_option maxRecDepth 131072 in
theorem W1_v28 : W1 m ρ c (Proc.devRef .tc main_v28)
    = mean (m ((c : Thread nD τ).loc main_arg1)) (aggr (m ((c : Thread nD τ).loc main_arg1)) (m ((c : Thread nD τ).loc main_arg0))) := by
  dsimp only [W1, hostOps0]; after_results_simp; try rfl
theorem W1_v30 : W1 m ρ c (Proc.devRef .tc main_v30)
    = truncf (F := Ideal) .bf16 (transpose S128x128 [1, 0] (m ((c : Thread nD τ).loc main_arg3)) transposes_S128x128_S128x128_1_0) bitsLt_bf16_f32 := by
  dsimp only [W1, hostOps0]; after_results; try rfl
theorem W1_v32 : W1 m ρ c (Proc.devRef .tc main_v32)
    = truncf (F := Ideal) .bf16 (transpose S128x128 [1, 0] (m ((c : Thread nD τ).loc main_arg5)) transposes_S128x128_S128x128_1_0) bitsLt_bf16_f32 := by
  dsimp only [W1, hostOps0]; after_results; try rfl

set_option maxHeartbeats 8000000 in
/-- No host operation of the first stretch writes an argument. -/
theorem W1_arg (b : Ref sig .tc) (hb : b = main_arg0 ∨ b = main_arg4 ∨ b = main_arg6 ∨ b = main_arg7 ∨ b = main_arg8 ∨ b = main_arg9
    ∨ b = main_arg10 ∨ b = main_arg11 ∨ b = main_arg12 ∨ b = main_arg13 ∨ b = main_arg14 ∨ b = main_arg15 ∨ b = main_arg16
    ∨ b = main_arg17 ∨ b = main_arg18) :
    W1 m ρ c (Proc.devRef .tc b) = m ((c : Thread nD τ).loc b) := by
  rcases hb with h | h | h | h | h | h | h | h | h | h | h | h | h | h | h <;> subst h <;>
    (dsimp only [W1, hostOps0]; after_results_simp; try rfl)

end Stretch0

/-! ## Across the first stage: a buffer the stage does not own keeps its contents -/

section Across0
variable (c : Dev nD)

theorem W2_keep (b : Ref sig .tc) (hb : ∀ w, Pipeline.arrRef spec0 w ≠ b) :
    W2 m ρ c (Proc.devRef .tc b) = W1 m ρ c (Proc.devRef .tc b) := W2_of_ne m ρ c b hb

theorem W2_v1 : W2 m ρ c (Proc.devRef .tc main_v1) = row0 (m ((c : Thread nD τ).loc main_arg1)) :=
  (W2_of_ne m ρ c main_v1 (by decide)).trans (W1_v1 m ρ c)
theorem W2_v3 : W2 m ρ c (Proc.devRef .tc main_v3) = row1 (m ((c : Thread nD τ).loc main_arg1)) :=
  (W2_of_ne m ρ c main_v3 (by decide)).trans (W1_v3 m ρ c)
theorem W2_v5 : W2 m ρ c (Proc.devRef .tc main_v5) = row0 (m ((c : Thread nD τ).loc main_arg2)) :=
  (W2_of_ne m ρ c main_v5 (by decide)).trans (W1_v5 m ρ c)
theorem W2_v7 : W2 m ρ c (Proc.devRef .tc main_v7) = row1 (m ((c : Thread nD τ).loc main_arg2)) :=
  (W2_of_ne m ρ c main_v7 (by decide)).trans (W1_v7 m ρ c)
theorem W2_v15 : W2 m ρ c (Proc.devRef .tc main_v15) = inv (m ((c : Thread nD τ).loc main_arg1)) :=
  (W2_of_ne m ρ c main_v15 (by decide)).trans (W1_v15 m ρ c)
theorem W2_arg10 : W2 m ρ c (Proc.devRef .tc main_arg10) = m ((c : Thread nD τ).loc main_arg10) :=
  (W2_of_ne m ρ c main_arg10 (by decide)).trans (W1_arg m ρ c main_arg10 (by simp))
theorem W2_arg11 : W2 m ρ c (Proc.devRef .tc main_arg11) = m ((c : Thread nD τ).loc main_arg11) :=
  (W2_of_ne m ρ c main_arg11 (by decide)).trans (W1_arg m ρ c main_arg11 (by simp))
theorem W2_arg12 : W2 m ρ c (Proc.devRef .tc main_arg12) = m ((c : Thread nD τ).loc main_arg12) :=
  (W2_of_ne m ρ c main_arg12 (by decide)).trans (W1_arg m ρ c main_arg12 (by simp))
theorem W2_arg13 : W2 m ρ c (Proc.devRef .tc main_arg13) = m ((c : Thread nD τ).loc main_arg13) :=
  (W2_of_ne m ρ c main_arg13 (by decide)).trans (W1_arg m ρ c main_arg13 (by simp))
theorem W2_arg14 : W2 m ρ c (Proc.devRef .tc main_arg14) = m ((c : Thread nD τ).loc main_arg14) :=
  (W2_of_ne m ρ c main_arg14 (by decide)).trans (W1_arg m ρ c main_arg14 (by simp))
theorem W2_arg15 : W2 m ρ c (Proc.devRef .tc main_arg15) = m ((c : Thread nD τ).loc main_arg15) :=
  (W2_of_ne m ρ c main_arg15 (by decide)).trans (W1_arg m ρ c main_arg15 (by simp))
theorem W2_arg16 : W2 m ρ c (Proc.devRef .tc main_arg16) = m ((c : Thread nD τ).loc main_arg16) :=
  (W2_of_ne m ρ c main_arg16 (by decide)).trans (W1_arg m ρ c main_arg16 (by simp))
theorem W2_arg17 : W2 m ρ c (Proc.devRef .tc main_arg17) = m ((c : Thread nD τ).loc main_arg17) :=
  (W2_of_ne m ρ c main_arg17 (by decide)).trans (W1_arg m ρ c main_arg17 (by simp))
theorem W2_arg18 : W2 m ρ c (Proc.devRef .tc main_arg18) = m ((c : Thread nD τ).loc main_arg18) :=
  (W2_of_ne m ρ c main_arg18 (by decide)).trans (W1_arg m ρ c main_arg18 (by simp))

end Across0

/-! ## The second stretch: from the first stage's exit to the second stage's entry -/

section Stretch1
variable (c : Dev nD)

set_option maxHeartbeats 4000000 in
set_option maxRecDepth 131072 in
theorem W3_v46 : W3 m ρ c (Proc.devRef .tc main_v46)
    = meanWith (W2 m ρ c (Proc.devRef .tc main_v15))
        (aggrWith (W2 m ρ c (Proc.devRef .tc main_v1)) (W2 m ρ c (Proc.devRef .tc main_v3)) (W2 m ρ c (Proc.devRef .tc main_v33))) := by
  dsimp only [W3, hostOps1]; after_results_simp; try rfl
theorem W3_v48 : W3 m ρ c (Proc.devRef .tc main_v48)
    = truncf (F := Ideal) .bf16 (transpose S128x64 [1, 0] (W2 m ρ c (Proc.devRef .tc main_arg10)) transposes_S64x128_S128x64_1_0) bitsLt_bf16_f32 := by
  dsimp only [W3, hostOps1]; after_results; try rfl
theorem W3_v50 : W3 m ρ c (Proc.devRef .tc main_v50)
    = truncf (F := Ideal) .bf16 (transpose S128x64 [1, 0] (W2 m ρ c (Proc.devRef .tc main_arg12)) transposes_S64x128_S128x64_1_0) bitsLt_bf16_f32 := by
  dsimp only [W3, hostOps1]; after_results; try rfl

set_option maxHeartbeats 4000000 in
/-- No host operation of the second stretch writes one of these buffers. -/
theorem W3_keep (b : Ref sig .tc) (hb : b = main_v33 ∨ b = main_arg11 ∨ b = main_v5 ∨ b = main_v7 ∨ b = main_arg13 ∨ b = main_arg14
    ∨ b = main_arg15 ∨ b = main_arg16 ∨ b = main_arg17 ∨ b = main_arg18) :
    W3 m ρ c (Proc.devRef .tc b) = W2 m ρ c (Proc.devRef .tc b) := by
  rcases hb with h | h | h | h | h | h | h | h | h | h <;> subst h <;>
    (dsimp only [W3, hostOps1]; after_results_simp; try rfl)

end Stretch1

/-! ## The third stretch: from the second stage's exit to the third stage's entry -/

section Stretch2
variable (c : Dev nD)

theorem W5_v58 : W5 m ρ c (Proc.devRef .tc main_v58)
    = gat (W4 m ρ c (Proc.devRef .tc main_v5)) (W4 m ρ c (Proc.devRef .tc main_v51)) := by
  dsimp only [W5, hostOps2]; after_results; try rfl
theorem W5_v65 : W5 m ρ c (Proc.devRef .tc main_v65)
    = gat (W4 m ρ c (Proc.devRef .tc main_v7)) (W4 m ρ c (Proc.devRef .tc main_v51)) := by
  dsimp only [W5, hostOps2]; after_results; try rfl
theorem W5_v68 : W5 m ρ c (Proc.devRef .tc main_v68)
    = extractStridedSlice S64x64 ![0, 0] (truncf (F := Ideal) .bf16 (transpose S128x64 [1, 0] (W4 m ρ c (Proc.devRef .tc main_arg13)) transposes_S64x128_S128x64_1_0) bitsLt_bf16_f32) slices_S128x64_S64x64_0_0 := by
  dsimp only [W5, hostOps2]; after_results; try rfl
theorem W5_v69 : W5 m ρ c (Proc.devRef .tc main_v69)
    = extractStridedSlice S64x64 ![64, 0] (truncf (F := Ideal) .bf16 (transpose S128x64 [1, 0] (W4 m ρ c (Proc.devRef .tc main_arg13)) transposes_S64x128_S128x64_1_0) bitsLt_bf16_f32) slices_S128x64_S64x64_64_0 := by
  dsimp only [W5, hostOps2]; after_results; try rfl
theorem W5_v71 : W5 m ρ c (Proc.devRef .tc main_v71)
    = truncf (F := Ideal) .bf16 (transpose S64x32 [1, 0] (W4 m ρ c (Proc.devRef .tc main_arg15)) transposes_S32x64_S64x32_1_0) bitsLt_bf16_f32 := by
  dsimp only [W5, hostOps2]; after_results; try rfl
theorem W5_v73 : W5 m ρ c (Proc.devRef .tc main_v73)
    = truncf (F := Ideal) .bf16 (transpose S32x1 [1, 0] (W4 m ρ c (Proc.devRef .tc main_arg17)) transposes_S1x32_S32x1_1_0) bitsLt_bf16_f32 := by
  dsimp only [W5, hostOps2]; after_results; try rfl

set_option maxHeartbeats 4000000 in
/-- No host operation of the third stretch writes a bias argument. -/
theorem W5_keep (b : Ref sig .tc) (hb : b = main_arg14 ∨ b = main_arg16 ∨ b = main_arg18) :
    W5 m ρ c (Proc.devRef .tc b) = W4 m ρ c (Proc.devRef .tc b) := by
  rcases hb with h | h | h <;> subst h <;>
    (dsimp only [W5, hostOps2]; after_results_simp; try rfl)

end Stretch2

end Cert.KernelIdeal.KValue

end
-- ==== Proof.Spec.lean ====
/-
  The mathematics of the three dense stages, index by index, over the extended reals.

  Every stage acts on the ROWS of its matrix operands independently: entry (p, q) of a stage's result depends on
  row p of the row operands and on the (small) weight operands only. The functions below are stated for any number of
  rows `a`, so that one and the same function describes a block of rows and the whole matrix, and a block of the
  whole matrix's result is the result of the blocks (`*_rows`).

  * `dot A W p q = Σ_k A(p,k) · W(k,q)`: a matrix product's entry.
  * `sageBN`: (agg·Wl + bl) + x·Wr, then the normalisation (h − μ) · rsqrt(var + ε) · γ + β, then max(·, 0).
  * `sage`: (agg·Wl + bl) + x·Wr.
  * `edge`: max((zi·W1a + zj·W1b) + b1, 0), then max(·W2 + b2, 0), then ·W3 + b3, then the logistic function.
-/
import Idealize.ShloMosaic.Lib.ValueIdx
import Idealize.ShloMosaic.PureOps.Ideal.Laws
import Idealize.ShloMosaic.Lib.IdealHost

noncomputable section

namespace Cert.Spec

open Idealize.ShloMosaic Idealize.ShloMosaic.ValueIdx

/-- Index type of an `a × b` matrix and of a vector of `b` entries. -/
abbrev M (a b : ℕ) : Type := (⟨2, ![a, b]⟩ : Shape).Idx
abbrev V1 (b : ℕ) : Type := (⟨1, ![b]⟩ : Shape).Idx

/-- Entry (p, q) of the product of an `a × b` by a `b × c` matrix. -/
def dot {a b c : ℕ} (A : M a b → EReal) (W : M b c → EReal) (p : Fin a) (q : Fin c) : EReal :=
  ∑ k : Fin b, A (ix2 p k) * W (ix2 k q)

/-- The product depends on row `p` of the left operand only. -/
theorem dot_rows {a a' b c : ℕ} (A : M a b → EReal) (A' : M a' b → EReal) (W : M b c → EReal) (p : Fin a) (p' : Fin a')
    (q : Fin c) (h : ∀ k, A' (ix2 p' k) = A (ix2 p k)) : dot A' W p' q = dot A W p q := by
  unfold dot
  exact Finset.sum_congr rfl fun k _ => by rw [h k]

/-- The first stage at (p, q): the two products and the bias, normalised, then clamped at zero. -/
def sageBNe {a : ℕ} (agg x : M a 128 → EReal) (wl wr : M 128 128 → EReal) (bl γ β μ var : V1 128 → EReal)
    (p : Fin a) (q : Fin 128) : EReal :=
  max (((((dot agg wl p q + bl (ix1 q)) + dot x wr p q) - μ (ix1 q))
      * Ideal.rsqrt (var (ix1 q) + Ideal.ofBits .f32 0x3727C5AC#32)) * γ (ix1 q) + β (ix1 q))
    (Ideal.ofBits .f32 0x00000000#32)

def sageBN {a : ℕ} (agg x : M a 128 → EReal) (wl wr : M 128 128 → EReal) (bl γ β μ var : V1 128 → EReal) :
    M a 128 → EReal := fun j => sageBNe agg x wl wr bl γ β μ var (j 0) (j 1)

theorem sageBNe_rows {a a' : ℕ} (agg x : M a 128 → EReal) (agg' x' : M a' 128 → EReal) (wl wr : M 128 128 → EReal)
    (bl γ β μ var : V1 128 → EReal) (p : Fin a) (p' : Fin a') (q : Fin 128)
    (h0 : ∀ k, agg' (ix2 p' k) = agg (ix2 p k)) (h1 : ∀ k, x' (ix2 p' k) = x (ix2 p k)) :
    sageBNe agg' x' wl wr bl γ β μ var p' q = sageBNe agg x wl wr bl γ β μ var p q := by
  unfold sageBNe
  rw [dot_rows agg agg' wl p p' q h0, dot_rows x x' wr p p' q h1]

/-- The second stage at (p, q): the two products and the bias. -/
def sagee {a : ℕ} (agg x : M a 128 → EReal) (wl wr : M 128 64 → EReal) (bl : V1 64 → EReal)
    (p : Fin a) (q : Fin 64) : EReal :=
  (dot agg wl p q + bl (ix1 q)) + dot x wr p q

def sage {a : ℕ} (agg x : M a 128 → EReal) (wl wr : M 128 64 → EReal) (bl : V1 64 → EReal) :
    M a 64 → EReal := fun j => sagee agg x wl wr bl (j 0) (j 1)

theorem sagee_rows {a a' : ℕ} (agg x : M a 128 → EReal) (agg' x' : M a' 128 → EReal) (wl wr : M 128 64 → EReal)
    (bl : V1 64 → EReal) (p : Fin a) (p' : Fin a') (q : Fin 64)
    (h0 : ∀ k, agg' (ix2 p' k) = agg (ix2 p k)) (h1 : ∀ k, x' (ix2 p' k) = x (ix2 p k)) :
    sagee agg' x' wl wr bl p' q = sagee agg x wl wr bl p q := by
  unfold sagee
  rw [dot_rows agg agg' wl p p' q h0, dot_rows x x' wr p p' q h1]

/-- The pair stage's first hidden layer at (p, q). -/
def hid1 {a : ℕ} (zi zj : M a 64 → EReal) (w1a w1b : M 64 64 → EReal) (b1 : V1 64 → EReal) : M a 64 → EReal :=
  fun j => max ((dot zi w1a (j 0) (j 1) + dot zj w1b (j 0) (j 1)) + b1 (ix1 (j 1))) (Ideal.ofBits .f32 0x00000000#32)

/-- A dense layer on a hidden matrix, clamped at zero. -/
def hid2 {a : ℕ} (h : M a 64 → EReal) (w2 : M 64 32 → EReal) (b2 : V1 32 → EReal) : M a 32 → EReal :=
  fun j => max (dot h w2 (j 0) (j 1) + b2 (ix1 (j 1))) (Ideal.ofBits .f32 0x00000000#32)

/-- The last layer and the logistic function. -/
def outl {a : ℕ} (h : M a 32 → EReal) (w3 : M 32 1 → EReal) (b3 : V1 1 → EReal) : M a 1 → EReal :=
  fun j => Ideal.logistic (dot h w3 (j 0) (j 1) + b3 (ix1 (j 1)))

/-- The pair stage. -/
def edge {a : ℕ} (zi zj : M a 64 → EReal) (w1a w1b : M 64 64 → EReal) (b1 : V1 64 → EReal) (w2 : M 64 32 → EReal)
    (b2 : V1 32 → EReal) (w3 : M 32 1 → EReal) (b3 : V1 1 → EReal) : M a 1 → EReal :=
  outl (hid2 (hid1 zi zj w1a w1b b1) w2 b2) w3 b3

theorem hid1_rows {a a' : ℕ} (zi zj : M a 64 → EReal) (zi' zj' : M a' 64 → EReal) (w1a w1b : M 64 64 → EReal)
    (b1 : V1 64 → EReal) (p : Fin a) (p' : Fin a') (q : Fin 64)
    (h0 : ∀ k, zi' (ix2 p' k) = zi (ix2 p k)) (h1 : ∀ k, zj' (ix2 p' k) = zj (ix2 p k)) :
    hid1 zi' zj' w1a w1b b1 (ix2 p' q) = hid1 zi zj w1a w1b b1 (ix2 p q) := by
  show max ((dot zi' w1a p' q + dot zj' w1b p' q) + b1 (ix1 q)) _ = max ((dot zi w1a p q + dot zj w1b p q) + b1 (ix1 q)) _
  rw [dot_rows zi zi' w1a p p' q h0, dot_rows zj zj' w1b p p' q h1]

theorem edge_rows {a a' : ℕ} (zi zj : M a 64 → EReal) (zi' zj' : M a' 64 → EReal) (w1a w1b : M 64 64 → EReal)
    (b1 : V1 64 → EReal) (w2 : M 64 32 → EReal) (b2 : V1 32 → EReal) (w3 : M 32 1 → EReal) (b3 : V1 1 → EReal)
    (p : Fin a) (p' : Fin a') (u : Fin 1)
    (h0 : ∀ k, zi' (ix2 p' k) = zi (ix2 p k)) (h1 : ∀ k, zj' (ix2 p' k) = zj (ix2 p k)) :
    edge zi' zj' w1a w1b b1 w2 b2 w3 b3 (ix2 p' u) = edge zi zj w1a w1b b1 w2 b2 w3 b3 (ix2 p u) := by
  have e1 : ∀ q, hid1 zi' zj' w1a w1b b1 (ix2 p' q) = hid1 zi zj w1a w1b b1 (ix2 p q) :=
    fun q => hid1_rows zi zj zi' zj' w1a w1b b1 p p' q h0 h1
  have e2 : ∀ r, hid2 (hid1 zi' zj' w1a w1b b1) w2 b2 (ix2 p' r) = hid2 (hid1 zi zj w1a w1b b1) w2 b2 (ix2 p r) := by
    intro r
    show max (dot _ w2 p' r + b2 (ix1 r)) _ = max (dot _ w2 p r + b2 (ix1 r)) _
    rw [dot_rows _ _ w2 p p' r e1]
  show Ideal.logistic (dot _ w3 p' u + b3 (ix1 u)) = Ideal.logistic (dot _ w3 p u + b3 (ix1 u))
  rw [dot_rows _ _ w3 p p' u e2]

/-! ## The whole network, over the shared irregular steps taken as given functions -/

/-- The upper and the lower 64 rows of a 128-row weight matrix. -/
def top (w : M 128 64 → EReal) : M 64 64 → EReal := fun j => w (ix2 (Fin.castAdd 64 (j 0)) (j 1))
def bot (w : M 128 64 → EReal) : M 64 64 → EReal := fun j => w (ix2 (Fin.natAdd 64 (j 0)) (j 1))

/-- The mean over incoming edges: the summed messages `S` of a node divided by its clamped in-degree. -/
def meanOf (S : M 50000 128 → EReal) (cnt : V1 50000 → EReal) : M 50000 128 → EReal :=
  fun j => Ideal.div (S j) (max (cnt (ix1 (j 0))) (Ideal.ofBits .f32 0x3F800000#32))

/-- The network's result from the node features `x`, the weights (already laid out as the products take them) and the
    three irregular steps taken as given functions: `aggr` (gather along the edges' sources, summed at their
    destinations), `cnt` (the in-degrees), `gi` / `gj` (the rows of the embedding at a pair's two ends). -/
def model (aggr : (M 50000 128 → EReal) → (M 50000 128 → EReal)) (cnt : V1 50000 → EReal)
    (gi gj : (M 50000 64 → EReal) → (M 800000 64 → EReal))
    (x : M 50000 128 → EReal) (wl1 : M 128 128 → EReal) (bl1 : V1 128 → EReal) (wr1 : M 128 128 → EReal)
    (γ β μ var : V1 128 → EReal) (wl2 : M 128 64 → EReal) (bl2 : V1 64 → EReal) (wr2 : M 128 64 → EReal)
    (w1 : M 128 64 → EReal) (b1 : V1 64 → EReal) (w2 : M 64 32 → EReal) (b2 : V1 32 → EReal)
    (w3 : M 32 1 → EReal) (b3 : V1 1 → EReal) : M 800000 1 → EReal :=
  let h := sageBN (meanOf (aggr x) cnt) x wl1 wr1 bl1 γ β μ var
  let z := sage (meanOf (aggr h) cnt) h wl2 wr2 bl2
  edge (gi z) (gj z) (top w1) (bot w1) b1 w2 b2 w3 b3

/-- A product over 128 shared entries splits into the products over the first and the last 64: the two halves of
    the rows `zi ‖ zj` against the two halves of the weight's rows. -/
theorem dot_split {a : ℕ} (A : M a 128 → EReal) (Ai Aj : M a 64 → EReal) (w : M 128 64 → EReal) (p : Fin a) (q : Fin 64)
    (hi : ∀ k : Fin 64, A (ix2 p (Fin.castAdd 64 k)) = Ai (ix2 p k))
    (hj : ∀ k : Fin 64, A (ix2 p (Fin.natAdd 64 k)) = Aj (ix2 p k)) :
    dot A w p q = dot Ai (top w) p q + dot Aj (bot w) p q := by
  unfold dot top bot
  rw [Fin.sum_univ_add (fun k : Fin (64 + 64) => A (ix2 p k) * w (ix2 k q))]
  refine congrArg₂ (· + ·) (Finset.sum_congr rfl fun k _ => ?_) (Finset.sum_congr rfl fun k _ => ?_)
  · show A (ix2 p (Fin.castAdd 64 k)) * w (ix2 (Fin.castAdd 64 k) q) = Ai (ix2 p k) * w (ix2 (Fin.castAdd 64 k) q)
    rw [hi k]
  · show A (ix2 p (Fin.natAdd 64 k)) * w (ix2 (Fin.natAdd 64 k) q) = Aj (ix2 p k) * w (ix2 (Fin.natAdd 64 k) q)
    rw [hj k]

/-- Multiplying by the reciprocal of a nonzero divisor is dividing by it, on every extended real. -/
theorem mul_inv_eq_div (s c : EReal) (hc : c ≠ 0) : s * Ideal.div 1 c = Ideal.div s c := by
  unfold Ideal.div
  rw [if_neg hc, if_neg hc, one_mul]

/-- The clamped in-degree is at least one, so it is not zero. -/
theorem clamp_ne_zero (n : EReal) : max n (Ideal.ofBits .f32 0x3F800000#32) ≠ 0 := by
  rw [Idealize.ShloMosaic.Ideal.ofBits_one_f32]
  intro h
  have h1 : (1 : EReal) ≤ max n 1 := le_max_right _ _
  rw [h] at h1
  exact absurd h1 (by norm_num)

end Cert.Spec

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«100353_j30889404793607_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.Stage0.lean ====
/-
  The first stage (the combine, the normalisation, the clamp at zero) read as a function of whole matrices.

  The stage runs over ten row blocks of 5000 rows. At a block its body computes, from the block's rows of the two row
  operands, the two weight matrices and the five vectors, ((agg·Wl + bl) + x·Wr − μ) · rsqrt(var + ε) · γ + β clamped
  below at zero: entry (r, q) of the block's result is `Spec.sageBNe` of the block's rows. A row of a block is a row of
  the whole matrix (row 5000·t + r at block t), the weight and vector windows are their whole arrays, so what block t
  writes back is block t of `Spec.sageBN` of the whole arrays; the ten blocks tile the 50000 rows.
-/
import proofs.«100353_j30889404793607_2_alg».proof.Proof.Gen.KernelIdeal.Frame
import proofs.«100353_j30889404793607_2_alg».proof.Proof.Spec
import proofs.«100353_j30889404793607_2_alg».proof.Proof.LibMatmulRows
import Idealize.ShloMosaic.Lib.ValueIdx
import Idealize.ShloMosaic.Lib.ValueLayout
import Idealize.ShloMosaic.Lib.Pipeline.Value

set_option maxRecDepth 16384

noncomputable section

namespace Cert.KernelIdeal.Stage0

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- A vector laid out as a row and repeated down the block reads, at (p, q), its entry q. -/
theorem row_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ _ p q).trans (shapeCast_a_1a_apply b _ 0 q)

/-- The normalisation's scale, rsqrt(var + ε) as a row repeated down the block, at (p, q). -/
theorem scale_apply (v : FVec Ideal S128 .f32) (p : Fin 5000) (q : Fin 128) :
    broadcastTo S5000x128 (rsqrt (addf (shapeCast S1x128 v shapeCasts_S128_S1x128) (broadcast S1x128 (Scalar.ofBits (F := Ideal) .f32 0x3727C5AC#32))))
      broadcasts_S1x128_S5000x128 (ix2 p q) = Ideal.rsqrt (v (ix1 q) + Ideal.ofBits .f32 0x3727C5AC#32) := by
  refine (broadcastTo_1b_ab_apply _ _ p q).trans ?_
  show Ideal.rsqrt (shapeCast S1x128 v shapeCasts_S128_S1x128 (ix2 (0 : Fin 1) q) + Ideal.ofBits .f32 0x3727C5AC#32) = _
  rw [shapeCast_a_1a_apply v _ 0 q]

/-- A block's product with a weight matrix, into zero, at (p, q): the sum over the shared axis. -/
theorem mm_apply (A : FVec Ideal S5000x128 .bf16) (W : FVec Ideal S128x128 .bf16) (p : Fin 5000) (q : Fin 128) :
    matmul dot_S5000x128_S128x128_S5000x128_1_0_0_1_n_n none A W (constant S5000x128 .f32 0x00000000#32) (ix2 p q)
      = Spec.dot (a := 5000) (b := 128) (c := 128) A W p q :=
  Cert.LibMatmulRows.matmul_rows_apply _ rfl rfl rfl rfl rfl rfl A W p q

/-- THE BODY'S VALUE: the stored block is `Spec.sageBN` of the loaded blocks. -/
theorem pay_eq (x0 x1 : Vec Ideal S5000x128 .f32) (x2 x4 : Vec Ideal S128x128 .bf16) (x3 x5 x6 x7 x8 : Vec Ideal S128 .f32) :
    k0_pay1 x0 x1 x2 x4 x3 x5 x6 x7 x8 = Spec.sageBN (a := 5000) x0 x1 x2 x4 x3 x5 x6 x7 x8 := by
  funext j
  obtain ⟨p, q, rfl⟩ : ∃ (p : Fin 5000) (q : Fin 128), j = ix2 p q := ⟨j 0, j 1, eq_ix2 j⟩
  show _ = Spec.sageBNe (a := 5000) x0 x1 x2 x4 x3 x5 x6 x7 x8 p q
  unfold k0_pay1 Spec.sageBNe
  refine congrArg₂ max (congrArg₂ (· + ·) (congrArg₂ (· * ·) (congrArg₂ (· * ·) (congrArg₂ (· - ·)
    (congrArg₂ (· + ·) (congrArg₂ (· + ·) ((mm_apply _ _ p q).trans ?_) (row_apply x3 p q)) ((mm_apply _ _ p q).trans ?_))
    (row_apply x7 p q)) (scale_apply x8 p q)) (row_apply x5 p q)) (row_apply x6 p q)) rfl
  · simp only [shapeCast_self]; rfl
  · simp only [shapeCast_self]; rfl

variable (V : (c : Dev nD) → (b : Ref sig .tc) → Buf (Elt Ideal) ((c : Thread nD τ).loc b))

/-- The printed index maps over the grid: the row windows move with the output by whole blocks, the others stay. -/
theorem idx_facts : ∀ t : Fin cfg0.N, win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 1) = 0 :=
  (by decide +kernel : ∀ t : Fin grid0.N, _)

/-- Row r of block t of a row operand is row 5000·t + r of its array. -/
theorem rows0 (c : Dev nD) (t : Fin cfg0.N) (r : Fin 5000) (k : Fin 128) (p : Fin 50000) (hp : p.val = t.val * 5000 + r.val) :
    iblk0 V c 0 t (ix2 r k) = V c main_v28 (ix2 p k) := by
  show V c main_v28 (((cfg0.win 0).blk t).view.emb (ix2 r k)) = V c main_v28 (ix2 p k)
  obtain ⟨-, -, e0, e1, -⟩ := idx_facts t
  refine congrArg (V c main_v28) (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

theorem rows1 (c : Dev nD) (t : Fin cfg0.N) (r : Fin 5000) (k : Fin 128) (p : Fin 50000) (hp : p.val = t.val * 5000 + r.val) :
    iblk0 V c 1 t (ix2 r k) = V c main_arg0 (ix2 p k) := by
  show V c main_arg0 (((cfg0.win 1).blk t).view.emb (ix2 r k)) = V c main_arg0 (ix2 p k)
  obtain ⟨-, -, -, -, e0, e1, -⟩ := idx_facts t
  refine congrArg (V c main_arg0) (funext fun a => Fin.ext ?_)
  match a with
  | ⟨0, _⟩ => show win0_1.index t (0 : Fin 2) * 5000 + 1 * r.val = p.val; omega
  | ⟨1, _⟩ => show win0_1.index t (1 : Fin 2) * 128 + 1 * k.val = k.val; omega

/-- The weight and vector windows' blocks are their whole arrays. -/
theorem whole2 (c : Dev nD) (t : Fin cfg0.N) : iblk0 V c 2 t = V c main_v30 := by
  funext y
  show V c main_v30 (((cfg0.win 2).blk t).view.emb y) = V c main_v30 y
  obtain ⟨-, -, -, -, -, -, e0, e1, -⟩ := idx_facts t
  refine congrArg (V c main_v30) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem whole4 (c : Dev nD) (t : Fin cfg0.N) : iblk0 V c 4 t = V c main_v32 := by
  funext y
  show V c main_v32 (((cfg0.win 4).blk t).view.emb y) = V c main_v32 y
  obtain ⟨-, -, -, -, -, -, -, -, -, e0, e1, -⟩ := idx_facts t
  refine congrArg (V c main_v32) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem whole3 (c : Dev nD) (t : Fin cfg0.N) : iblk0 V c 3 t = V c main_arg4 := by
  funext y
  show V c main_arg4 (((cfg0.win 3).blk t).view.emb y) = V c main_arg4 y
  obtain ⟨-, -, -, -, -, -, -, -, e0, -⟩ := idx_facts t
  refine congrArg (V c main_arg4) (funext fun a => Fin.ext ?_)
  match a with
  | ⟨0, _⟩ => show win0_3.index t (0 : Fin 1) * 128 + 1 * (y 0).val = (y 0).val; omega

theorem whole5 (c : Dev nD) (t : Fin cfg0.N) : iblk0 V c 5 t = V c main_arg6 := by
  funext y
  show V c main_arg6 (((cfg0.win 5).blk t).view.emb y) = V c main_arg6 y
  obtain ⟨-, -, -, -, -, -, -, -, -, -, -, e0, -⟩ := idx_facts t
  refine congrArg (V c main_arg6) (funext fun a => Fin.ext ?_)
  match a with
  | ⟨0, _⟩ => show win0_5.index t (0 : Fin 1) * 128 + 1 * (y 0).val = (y 0).val; omega

theorem whole6 (c : Dev nD) (t : Fin cfg0.N) : iblk0 V c 6 t = V c main_arg7 := by
  funext y
  show V c main_arg7 (((cfg0.win 6).blk t).view.emb y) = V c main_arg7 y
  obtain ⟨-, -, -, -, -, -, -, -, -, -, -, -, e0, -⟩ := idx_facts t
  refine congrArg (V c main_arg7) (funext fun a => Fin.ext ?_)
  match a with
  | ⟨0, _⟩ => show win0_6.index t (0 : Fin 1) * 128 + 1 * (y 0).val = (y 0).val; omega

theorem whole7 (c : Dev nD) (t : Fin cfg0.N) : iblk0 V c 7 t = V c main_arg8 := by
  funext y
  show V c main_arg8 (((cfg0.win 7).blk t).view.emb y) = V c main_arg8 y
  obtain ⟨-, -, -, -, -, -, -, -, -, -, -, -, -, e0, -⟩ := idx_facts t
  refine congrArg (V c main_arg8) (funext fun a => Fin.ext ?_)
  match a with
  | ⟨0, _⟩ => show win0_7.index t (0 : Fin 1) * 128 + 1 * (y 0).val = (y 0).val; omega

theorem whole8 (c : Dev nD) (t : Fin cfg0.N) : iblk0 V c 8 t = V c main_arg9 := by
  funext y
  show V c main_arg9 (((cfg0.win 8).blk t).view.emb y) = V c main_arg9 y
  obtain ⟨-, -, -, -, -, -, -, -, -, -, -, -, -, -, e0⟩ := idx_facts t
  refine congrArg (V c main_arg9) (funext fun a => Fin.ext ?_)
  match a with
  | ⟨0, _⟩ => show win0_8.index t (0 : Fin 1) * 128 + 1 * (y 0).val = (y 0).val; omega

/-- WHAT POINT t WRITES BACK is block t of `Spec.sageBN` of the arrays as the stage finds them. -/
theorem flushed_eq (c : Dev nD) (t : Fin cfg0.N) :
    (dat0 V c).flushed 9 t = ((cfg0.win 9).blk t).view.read (Elt Ideal)
      (Spec.sageBN (a := 50000) (V c main_v28) (V c main_arg0) (V c main_v30) (V c main_v32) (V c main_arg4)
        (V c main_arg6) (V c main_arg7) (V c main_arg8) (V c main_arg9)) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S128x128) hz2, View.ld_unit_zero (S := S128) hz1]
  rw [pay_eq, whole2, whole3, whole4, whole5, whole6, whole7, whole8]
  funext y
  obtain ⟨r, q, rfl⟩ : ∃ (r : Fin 5000) (q : Fin 128), y = ix2 r q := ⟨y 0, y 1, eq_ix2 y⟩
  have ht : t.val < 10 := (show t.val < grid0.N from t.isLt).trans_eq N_0
  obtain ⟨e0, e1, -⟩ := idx_facts t
  let p : Fin 50000 := ⟨t.val * 5000 + r.val, by have := r.isLt; omega⟩
  have hemb : ((cfg0.win 9).blk t).view.emb (ix2 r q) = ix2 p q := by
    funext a; apply Fin.ext
    match a with
    | ⟨0, _⟩ => show win0_9.index t (0 : Fin 2) * 5000 + 1 * r.val = t.val * 5000 + r.val; omega
    | ⟨1, _⟩ => show win0_9.index t (1 : Fin 2) * 128 + 1 * q.val = q.val; omega
  show Spec.sageBNe (a := 5000) (iblk0 V c 0 t) (iblk0 V c 1 t) (V c main_v30) (V c main_v32) (V c main_arg4)
      (V c main_arg6) (V c main_arg7) (V c main_arg8) (V c main_arg9) r q
    = Spec.sageBN (a := 50000) (V c main_v28) (V c main_arg0) (V c main_v30) (V c main_v32) (V c main_arg4)
      (V c main_arg6) (V c main_arg7) (V c main_arg8) (V c main_arg9) (((cfg0.win 9).blk t).view.emb (ix2 r q))
  rw [hemb]
  exact Spec.sageBNe_rows (V c main_v28) (V c main_arg0) (iblk0 V c 0 t) (iblk0 V c 1 t) (V c main_v30) (V c main_v32)
    (V c main_arg4) (V c main_arg6) (V c main_arg7) (V c main_arg8) (V c main_arg9) p r q
    (fun k => rows0 V c t r k p rfl) (fun k => rows1 V c t r k p rfl)

/-- An index of the result array is in point t's block iff each coordinate is in the block's range. -/
theorem mem_blk (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v33).slice (win0_9.rect t)).set ↔ _
  rw [View.set_slice_whole, Rect.mem_set_unit]
  exact Iff.rfl

/-- The ten blocks tile the result array: row i is in block i / 5000. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have htv : t.val = (i 0).val / 5000 := rfl
  refine ⟨t, flush0_9 t, ?_⟩
  rw [mem_blk]
  obtain ⟨e0, e1, -⟩ := idx_facts t
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- THE RESULT ARRAY after the stage: `Spec.sageBN` of the arrays the stage was entered with. -/
theorem final (c : Dev nD) : (dat0 V c).arrAt 9 cfg0.N
    = Spec.sageBN (a := 50000) (V c main_v28) (V c main_arg0) (V c main_v30) (V c main_v32) (V c main_arg4)
        (V c main_arg6) (V c main_arg7) (V c main_arg8) (V c main_arg9) :=
  (dat0 V c).arrAt_eq_of_cover 9 _ (fun t _ => flushed_eq V c t) cover

end Cert.KernelIdeal.Stage0

end
-- ==== Proof.Stage1.lean ====
/-
  The second stage (the plain combine, no normalisation) read as a function of whole matrices.

  The stage runs over ten row blocks of 5000 rows. At a block, its body computes, from the block's rows of the two
  row operands and from the weights, (agg·Wl + bl) + x·Wr: entry (r, q) of the block's result is `Spec.sagee` of the
  block's rows. A row of a block is a row of the whole matrix (row 5000·t + r at block t), and the weight windows
  are their whole arrays, so what block t writes back is block t of `Spec.sage` of the whole matrices; the ten blocks
  tile the 50000 rows, hence the result array ends holding `Spec.sage` of the arrays the stage was entered with.
-/
import proofs.«100353_j30889404793607_2_alg».proof.Proof.Gen.KernelIdeal.Frame
import proofs.«100353_j30889404793607_2_alg».proof.Proof.Spec
import proofs.«100353_j30889404793607_2_alg».proof.Proof.LibMatmulRows
import Idealize.ShloMosaic.Lib.ValueIdx
import Idealize.ShloMosaic.Lib.ValueLayout
import Idealize.ShloMosaic.Lib.Pipeline.Value

set_option maxRecDepth 16384

noncomputable section

namespace Cert.KernelIdeal.Stage1

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The bias vector laid out as a row and repeated down the block reads, at (p, q), its entry q. -/
theorem bias_apply (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ _ p q).trans (shapeCast_a_1a_apply b _ 0 q)

/-- A block's product with a weight matrix, into zero, at (p, q): the sum over the shared axis. -/
theorem mm_apply (A : FVec Ideal S5000x128 .bf16) (W : FVec Ideal S128x64 .bf16) (p : Fin 5000) (q : Fin 64) :
    matmul dot_S5000x128_S128x64_S5000x64_1_0_0_1_n_n none A W (constant S5000x64 .f32 0x00000000#32) (ix2 p q)
      = Spec.dot (a := 5000) (b := 128) (c := 64) A W p q :=
  Cert.LibMatmulRows.matmul_rows_apply _ rfl rfl rfl rfl rfl rfl A W p q

/-- THE BODY'S VALUE: the stored block is `Spec.sage` of the loaded blocks. -/
theorem pay_eq (x0 x1 : Vec Ideal S5000x128 .f32) (x2 x4 : Vec Ideal S128x64 .bf16) (x3 : Vec Ideal S64 .f32) :
    k1_pay1 x0 x1 x2 x4 x3 = Spec.sage (a := 5000) x0 x1 x2 x4 x3 := by
  funext j
  obtain ⟨p, q, rfl⟩ : ∃ (p : Fin 5000) (q : Fin 64), j = ix2 p q := ⟨j 0, j 1, eq_ix2 j⟩
  show _ = Spec.sagee (a := 5000) x0 x1 x2 x4 x3 p q
  unfold k1_pay1 Spec.sagee
  refine congrArg₂ (· + ·) (congrArg₂ (· + ·) ((mm_apply _ _ p q).trans ?_) (bias_apply x3 p q)) ((mm_apply _ _ p q).trans ?_)
  · rw [shapeCast_self, shapeCast_self]; rfl
  · rw [shapeCast_self, shapeCast_self]; rfl

variable (V : (c : Dev nD) → (b : Ref sig .tc) → Buf (Elt Ideal) ((c : Thread nD τ).loc b))

/-- The printed index maps over the grid: the row windows move with the output by whole blocks, the weight windows stay. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- Row r of block t of the first row operand is row 5000·t + r of its array. -/
theorem rows0 (c : Dev nD) (t : Fin cfg1.N) (r : Fin 5000) (k : Fin 128) (p : Fin 50000) (hp : p.val = t.val * 5000 + r.val) :
    iblk1 V c 0 t (ix2 r k) = V c main_v46 (ix2 p k) := by
  show V c main_v46 (((cfg1.win 0).blk t).view.emb (ix2 r k)) = V c main_v46 (ix2 p k)
  obtain ⟨-, -, e0, e1, -⟩ := idx_facts t
  refine congrArg (V c main_v46) (funext fun a => Fin.ext ?_)
  match a with
  | ⟨0, _⟩ => show win1_0.index t (0 : Fin 2) * 5000 + 1 * r.val = p.val; omega
  | ⟨1, _⟩ => show win1_0.index t (1 : Fin 2) * 128 + 1 * k.val = k.val; omega

/-- Row r of block t of the second row operand is row 5000·t + r of its array. -/
theorem rows1 (c : Dev nD) (t : Fin cfg1.N) (r : Fin 5000) (k : Fin 128) (p : Fin 50000) (hp : p.val = t.val * 5000 + r.val) :
    iblk1 V c 1 t (ix2 r k) = V c main_v33 (ix2 p k) := by
  show V c main_v33 (((cfg1.win 1).blk t).view.emb (ix2 r k)) = V c main_v33 (ix2 p k)
  obtain ⟨-, -, -, -, e0, e1, -⟩ := idx_facts t
  refine congrArg (V c main_v33) (funext fun a => Fin.ext ?_)
  match a with
  | ⟨0, _⟩ => show win1_1.index t (0 : Fin 2) * 5000 + 1 * r.val = p.val; omega
  | ⟨1, _⟩ => show win1_1.index t (1 : Fin 2) * 128 + 1 * k.val = k.val; omega

/-- The weight windows' blocks are their whole arrays. -/
theorem whole2 (c : Dev nD) (t : Fin cfg1.N) : iblk1 V c 2 t = V c main_v48 := by
  funext y
  show V c main_v48 (((cfg1.win 2).blk t).view.emb y) = V c main_v48 y
  obtain ⟨-, -, -, -, -, -, e0, e1, -⟩ := idx_facts t
  refine congrArg (V c main_v48) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

theorem whole3 (c : Dev nD) (t : Fin cfg1.N) : iblk1 V c 3 t = V c main_arg11 := by
  funext y
  show V c main_arg11 (((cfg1.win 3).blk t).view.emb y) = V c main_arg11 y
  obtain ⟨-, -, -, -, -, -, -, -, e0, -⟩ := idx_facts t
  refine congrArg (V c main_arg11) (funext fun a => Fin.ext ?_)
  match a with
  | ⟨0, _⟩ => show win1_3.index t (0 : Fin 1) * 64 + 1 * (y 0).val = (y 0).val; omega

theorem whole4 (c : Dev nD) (t : Fin cfg1.N) : iblk1 V c 4 t = V c main_v50 := by
  funext y
  show V c main_v50 (((cfg1.win 4).blk t).view.emb y) = V c main_v50 y
  obtain ⟨-, -, -, -, -, -, -, -, -, e0, e1⟩ := idx_facts t
  refine congrArg (V c main_v50) (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- WHAT POINT t WRITES BACK is block t of `Spec.sage` of the arrays as the stage finds them. -/
theorem flushed_eq (c : Dev nD) (t : Fin cfg1.N) :
    (dat1 V c).flushed 5 t = ((cfg1.win 5).blk t).view.read (Elt Ideal)
      (Spec.sage (a := 50000) (V c main_v46) (V c main_v33) (V c main_v48) (V c main_v50) (V c main_arg11)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x64) hz2, View.ld_unit_zero (S := S64) hz1]
  rw [pay_eq, whole2, whole3, whole4]
  funext y
  obtain ⟨r, q, rfl⟩ : ∃ (r : Fin 5000) (q : Fin 64), y = ix2 r q := ⟨y 0, y 1, eq_ix2 y⟩
  have ht : t.val < 10 := (show t.val < grid1.N from t.isLt).trans_eq N_1
  obtain ⟨e0, e1, -⟩ := idx_facts t
  let p : Fin 50000 := ⟨t.val * 5000 + r.val, by have := r.isLt; omega⟩
  have hemb : ((cfg1.win 5).blk t).view.emb (ix2 r q) = ix2 p q := by
    funext a; apply Fin.ext
    match a with
    | ⟨0, _⟩ => show win1_5.index t (0 : Fin 2) * 5000 + 1 * r.val = t.val * 5000 + r.val; omega
    | ⟨1, _⟩ => show win1_5.index t (1 : Fin 2) * 64 + 1 * q.val = q.val; omega
  show Spec.sagee (a := 5000) (iblk1 V c 0 t) (iblk1 V c 1 t) (V c main_v48) (V c main_v50) (V c main_arg11) r q
    = Spec.sage (a := 50000) (V c main_v46) (V c main_v33) (V c main_v48) (V c main_v50) (V c main_arg11) (((cfg1.win 5).blk t).view.emb (ix2 r q))
  rw [hemb]
  exact Spec.sagee_rows (V c main_v46) (V c main_v33) (iblk1 V c 0 t) (iblk1 V c 1 t) (V c main_v48) (V c main_v50) (V c main_arg11) p r q
    (fun k => rows0 V c t r k p rfl) (fun k => rows1 V c t r k p rfl)

/-- An index of the result array is in point t's block iff each coordinate is in the block's range. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v51).slice (win1_5.rect t)).set ↔ _
  rw [View.set_slice_whole, Rect.mem_set_unit]
  exact Iff.rfl

/-- The ten blocks tile the result array: row i is in block i / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have htv : t.val = (i 0).val / 5000 := rfl
  refine ⟨t, flush1_5 t, ?_⟩
  rw [mem_blk]
  obtain ⟨e0, e1, -⟩ := idx_facts t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE RESULT ARRAY after the stage: `Spec.sage` of the arrays the stage was entered with. -/
theorem final (c : Dev nD) : (dat1 V c).arrAt 5 cfg1.N
    = Spec.sage (a := 50000) (V c main_v46) (V c main_v33) (V c main_v48) (V c main_v50) (V c main_arg11) :=
  (dat1 V c).arrAt_eq_of_cover 5 _ (fun t _ => flushed_eq V c t) cover

end Cert.KernelIdeal.Stage1

end
-- ==== Proof.Stage2.lean ====
/-
  The third stage (the pair network) read as a function of whole matrices.

  The stage runs over eighty row blocks of 10000 pairs. At a block its body computes, from the block's rows of the two
  gathered embeddings and from the weights, max((zi·W1a + zj·W1b) + b1, 0), then max(·W2 + b2, 0), then ·W3 + b3, then
  the logistic function: the block's result is `Spec.edge` of the block's rows. A row of a block is a row of the
  whole matrix (row 10000·t + r at block t), the weight windows are their whole arrays, so what block t writes back
  is block t of `Spec.edge` of the whole arrays; the eighty blocks tile the 800000 rows.
-/
import proofs.«100353_j30889404793607_2_alg».proof.Proof.Gen.KernelIdeal.Frame
import proofs.«100353_j30889404793607_2_alg».proof.Proof.Spec
import proofs.«100353_j30889404793607_2_alg».proof.Proof.LibMatmulRows
import Idealize.ShloMosaic.Lib.ValueIdx
import Idealize.ShloMosaic.Lib.ValueLayout
import Idealize.ShloMosaic.Lib.Pipeline.Value

set_option maxRecDepth 16384

noncomputable section

namespace Cert.KernelIdeal.Stage2

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-! ## The body's three layers, each as one function of its operands -/

/-- The first hidden layer as the body computes it. -/
def hid1K (x0 x1 : FVec Ideal S10000x64 .f32) (x2 x3 : FVec Ideal S64x64 .bf16) (x4 : FVec Ideal S64 .f32) : FVec Ideal S10000x64 .f32 :=
  maximumf (addf (addf
      (matmul dot_S10000x64_S64x64_S10000x64_1_0_0_1_n_n none (truncf .bf16 (shapeCast S10000x64 x0 shapeCasts_S10000x64_S10000x64) bitsLt_bf16_f32) (shapeCast S64x64 x2 shapeCasts_S64x64_S64x64) (constant S10000x64 .f32 0x00000000#32))
      (matmul dot_S10000x64_S64x64_S10000x64_1_0_0_1_n_n none (truncf .bf16 (shapeCast S10000x64 x1 shapeCasts_S10000x64_S10000x64) bitsLt_bf16_f32) (shapeCast S64x64 x3 shapeCasts_S64x64_S64x64) (constant S10000x64 .f32 0x00000000#32)))
    (broadcastTo S10000x64 (shapeCast S1x64 x4 shapeCasts_S64_S1x64) broadcasts_S1x64_S10000x64))
    (broadcast S10000x64 (Scalar.ofBits (F := Ideal) .f32 0x00000000#32))

/-- The second hidden layer as the body computes it. -/
def hid2K (h : FVec Ideal S10000x64 .f32) (x5 : FVec Ideal S64x32 .bf16) (x6 : FVec Ideal S32 .f32) : FVec Ideal S10000x32 .f32 :=
  maximumf (addf
      (matmul dot_S10000x64_S64x32_S10000x32_1_0_0_1_n_n none (truncf .bf16 h bitsLt_bf16_f32) (shapeCast S64x32 x5 shapeCasts_S64x32_S64x32) (constant S10000x32 .f32 0x00000000#32))
      (broadcastTo S10000x32 (shapeCast S1x32 x6 shapeCasts_S32_S1x32) broadcasts_S1x32_S10000x32))
    (broadcast S10000x32 (Scalar.ofBits (F := Ideal) .f32 0x00000000#32))

/-- The last layer and the logistic function as the body computes them. -/
def outK (h : FVec Ideal S10000x32 .f32) (x7 : FVec Ideal S32x1 .bf16) (x8 : FVec Ideal S1 .f32) : FVec Ideal S10000x1 .f32 :=
  logistic (addf
      (matmul dot_S10000x32_S32x1_S10000x1_1_0_0_1_n_n none (truncf .bf16 h bitsLt_bf16_f32) (shapeCast S32x1 x7 shapeCasts_S32x1_S32x1) (constant S10000x1 .f32 0x00000000#32))
      (broadcastTo S10000x1 (shapeCast S1x1 x8 shapeCasts_S1_S1x1) broadcasts_S1x1_S10000x1))

/-- The body's payload is the three layers composed. -/
theorem pay_split (x0 x1 : Vec Ideal S10000x64 .f32) (x2 x3 : Vec Ideal S64x64 .bf16) (x4 : Vec Ideal S64 .f32)
    (x5 : Vec Ideal S64x32 .bf16) (x6 : Vec Ideal S32 .f32) (x7 : Vec Ideal S32x1 .bf16) (x8 : Vec Ideal S1 .f32) :
    k2_pay1 x0 x1 x2 x3 x4 x5 x6 x7 x8 = outK (hid2K (hid1K x0 x1 x2 x3 x4) x5 x6) x7 x8 := rfl

theorem hid1K_eq (x0 x1 : FVec Ideal S10000x64 .f32) (x2 x3 : FVec Ideal S64x64 .bf16) (x4 : FVec Ideal S64 .f32) :
    hid1K x0 x1 x2 x3 x4 = Spec.hid1 (a := 10000) x0 x1 x2 x3 x4 := by
  funext j
  obtain ⟨p, q, rfl⟩ : ∃ (p : Fin 10000) (q : Fin 64), j = ix2 p q := ⟨j 0, j 1, eq_ix2 j⟩
  unfold hid1K
  show _ = max ((Spec.dot (a := 10000) x0 x2 p q + Spec.dot (a := 10000) x1 x3 p q) + x4 (ix1 q)) (Ideal.ofBits .f32 0x00000000#32)
  refine congrArg₂ max (congrArg₂ (· + ·) (congrArg₂ (· + ·)
    ((Cert.LibMatmulRows.matmul_rows_apply _ rfl rfl rfl rfl rfl rfl _ _ p q).trans ?_)
    ((Cert.LibMatmulRows.matmul_rows_apply _ rfl rfl rfl rfl rfl rfl _ _ p q).trans ?_))
    ((broadcastTo_1b_ab_apply _ _ p q).trans (shapeCast_a_1a_apply x4 _ 0 q))) rfl
  · simp only [shapeCast_self]; rfl
  · simp only [shapeCast_self]; rfl

theorem hid2K_eq (h : FVec Ideal S10000x64 .f32) (x5 : FVec Ideal S64x32 .bf16) (x6 : FVec Ideal S32 .f32) :
    hid2K h x5 x6 = Spec.hid2 (a := 10000) h x5 x6 := by
  funext j
  obtain ⟨p, q, rfl⟩ : ∃ (p : Fin 10000) (q : Fin 32), j = ix2 p q := ⟨j 0, j 1, eq_ix2 j⟩
  unfold hid2K
  show _ = max (Spec.dot (a := 10000) h x5 p q + x6 (ix1 q)) (Ideal.ofBits .f32 0x00000000#32)
  refine congrArg₂ max (congrArg₂ (· + ·)
    ((Cert.LibMatmulRows.matmul_rows_apply _ rfl rfl rfl rfl rfl rfl _ _ p q).trans ?_)
    ((broadcastTo_1b_ab_apply _ _ p q).trans (shapeCast_a_1a_apply x6 _ 0 q))) rfl
  simp only [shapeCast_self]; rfl

theorem outK_eq (h : FVec Ideal S10000x32 .f32) (x7 : FVec Ideal S32x1 .bf16) (x8 : FVec Ideal S1 .f32) :
    outK h x7 x8 = Spec.outl (a := 10000) h x7 x8 := by
  funext j
  obtain ⟨p, u, rfl⟩ : ∃ (p : Fin 10000) (u : Fin 1), j = ix2 p u := ⟨j 0, j 1, eq_ix2 j⟩
  unfold outK
  show _ = Ideal.logistic (Spec.dot (a := 10000) h x7 p u + x8 (ix1 u))
  refine congrArg Ideal.logistic (congrArg₂ (· + ·)
    ((Cert.LibMatmulRows.matmul_rows_apply _ rfl rfl rfl rfl rfl rfl _ _ p u).trans ?_)
    ((broadcastTo_1b_ab_apply _ _ p u).trans (shapeCast_a_1a_apply x8 _ 0 u)))
  simp only [shapeCast_self]; rfl

/-- THE BODY'S VALUE: the stored block is `Spec.edge` of the loaded blocks. -/
theorem pay_eq (x0 x1 : Vec Ideal S10000x64 .f32) (x2 x3 : Vec Ideal S64x64 .bf16) (x4 : Vec Ideal S64 .f32)
    (x5 : Vec Ideal S64x32 .bf16) (x6 : Vec Ideal S32 .f32) (x7 : Vec Ideal S32x1 .bf16) (x8 : Vec Ideal S1 .f32) :
    k2_pay1 x0 x1 x2 x3 x4 x5 x6 x7 x8 = Spec.edge (a := 10000) x0 x1 x2 x3 x4 x5 x6 x7 x8 := by
  rw [pay_split, hid1K_eq, hid2K_eq, outK_eq]; rfl

variable (V : (c : Dev nD) → (b : Ref sig .tc) → Buf (Elt Ideal) ((c : Thread nD τ).loc b))

/-- The printed index maps over the grid: the row windows move with the output by whole blocks, the others stay. -/
theorem idx_facts : ∀ t : Fin cfg2.N, win2_9.index t (0 : Fin 2) = t.val ∧ win2_9.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

/-- Row r of block t of a row operand is row 10000·t + r of its array. -/
theorem rows0 (c : Dev nD) (t : Fin cfg2.N) (r : Fin 10000) (k : Fin 64) (p : Fin 800000) (hp : p.val = t.val * 10000 + r.val) :
    iblk2 V c 0 t (ix2 r k) = V c main_v58 (ix2 p k) := by
  show V c main_v58 (((cfg2.win 0).blk t).view.emb (ix2 r k)) = V c main_v58 (ix2 p k)
  obtain ⟨-, -, e0, e1, -⟩ := idx_facts t
  refine congrArg (V c main_v58) (funext fun a => Fin.ext ?_)
  match a with
  | ⟨0, _⟩ => show win2_0.index t (0 : Fin 2) * 10000 + 1 * r.val = p.val; omega
  | ⟨1, _⟩ => show win2_0.index t (1 : Fin 2) * 64 + 1 * k.val = k.val; omega

theorem rows1 (c : Dev nD) (t : Fin cfg2.N) (r : Fin 10000) (k : Fin 64) (p : Fin 800000) (hp : p.val = t.val * 10000 + r.val) :
    iblk2 V c 1 t (ix2 r k) = V c main_v65 (ix2 p k) := by
  show V c main_v65 (((cfg2.win 1).blk t).view.emb (ix2 r k)) = V c main_v65 (ix2 p k)
  obtain ⟨-, -, -, -, e0, e1, -⟩ := idx_facts t
  refine congrArg (V c main_v65) (funext fun a => Fin.ext ?_)
  match a with
  | ⟨0, _⟩ => show win2_1.index t (0 : Fin 2) * 10000 + 1 * r.val = p.val; omega
  | ⟨1, _⟩ => show win2_1.index t (1 : Fin 2) * 64 + 1 * k.val = k.val; omega

/-- The weight and bias windows' blocks are their whole arrays. -/
theorem whole2 (c : Dev nD) (t : Fin cfg2.N) : iblk2 V c 2 t = V c main_v68 := by
  funext y
  show V c main_v68 (((cfg2.win 2).blk t).view.emb y) = V c main_v68 y
  obtain ⟨-, -, -, -, -, -, e0, e1, -⟩ := idx_facts t
  refine congrArg (V c main_v68) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

theorem whole3 (c : Dev nD) (t : Fin cfg2.N) : iblk2 V c 3 t = V c main_v69 := by
  funext y
  show V c main_v69 (((cfg2.win 3).blk t).view.emb y) = V c main_v69 y
  obtain ⟨-, -, -, -, -, -, -, -, e0, e1, -⟩ := idx_facts t
  refine congrArg (V c main_v69) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

theorem whole4 (c : Dev nD) (t : Fin cfg2.N) : iblk2 V c 4 t = V c main_arg14 := by
  funext y
  show V c main_arg14 (((cfg2.win 4).blk t).view.emb y) = V c main_arg14 y
  obtain ⟨-, -, -, -, -, -, -, -, -, -, e0, -⟩ := idx_facts t
  refine congrArg (V c main_arg14) (funext fun a => Fin.ext ?_)
  match a with
  | ⟨0, _⟩ => show win2_4.index t (0 : Fin 1) * 64 + 1 * (y 0).val = (y 0).val; omega

theorem whole5 (c : Dev nD) (t : Fin cfg2.N) : iblk2 V c 5 t = V c main_v71 := by
  funext y
  show V c main_v71 (((cfg2.win 5).blk t).view.emb y) = V c main_v71 y
  obtain ⟨-, -, -, -, -, -, -, -, -, -, -, e0, e1, -⟩ := idx_facts t
  refine congrArg (V c main_v71) (funext fun a => Fin.ext ?_)
  match a with
  | ⟨0, _⟩ => show win2_5.index t (0 : Fin 2) * 64 + 1 * (y 0).val = (y 0).val; omega
  | ⟨1, _⟩ => show win2_5.index t (1 : Fin 2) * 32 + 1 * (y 1).val = (y 1).val; omega

theorem whole6 (c : Dev nD) (t : Fin cfg2.N) : iblk2 V c 6 t = V c main_arg16 := by
  funext y
  show V c main_arg16 (((cfg2.win 6).blk t).view.emb y) = V c main_arg16 y
  obtain ⟨-, -, -, -, -, -, -, -, -, -, -, -, -, e0, -⟩ := idx_facts t
  refine congrArg (V c main_arg16) (funext fun a => Fin.ext ?_)
  match a with
  | ⟨0, _⟩ => show win2_6.index t (0 : Fin 1) * 32 + 1 * (y 0).val = (y 0).val; omega

theorem whole7 (c : Dev nD) (t : Fin cfg2.N) : iblk2 V c 7 t = V c main_v73 := by
  funext y
  show V c main_v73 (((cfg2.win 7).blk t).view.emb y) = V c main_v73 y
  obtain ⟨-, -, -, -, -, -, -, -, -, -, -, -, -, -, e0, e1, -⟩ := idx_facts t
  refine congrArg (V c main_v73) (funext fun a => Fin.ext ?_)
  match a with
  | ⟨0, _⟩ => show win2_7.index t (0 : Fin 2) * 32 + 1 * (y 0).val = (y 0).val; omega
  | ⟨1, _⟩ => show win2_7.index t (1 : Fin 2) * 1 + 1 * (y 1).val = (y 1).val; omega

theorem whole8 (c : Dev nD) (t : Fin cfg2.N) : iblk2 V c 8 t = V c main_arg18 := by
  funext y
  show V c main_arg18 (((cfg2.win 8).blk t).view.emb y) = V c main_arg18 y
  obtain ⟨-, -, -, -, -, -, -, -, -, -, -, -, -, -, -, -, e0⟩ := idx_facts t
  refine congrArg (V c main_arg18) (funext fun a => Fin.ext ?_)
  match a with
  | ⟨0, _⟩ => show win2_8.index t (0 : Fin 1) * 1 + 1 * (y 0).val = (y 0).val; omega

set_option maxHeartbeats 4000000 in
/-- WHAT POINT t WRITES BACK is block t of `Spec.edge` of the arrays as the stage finds them. -/
theorem flushed_eq (c : Dev nD) (t : Fin cfg2.N) :
    (dat2 V c).flushed 9 t = ((cfg2.win 9).blk t).view.read (Elt Ideal)
      (Spec.edge (a := 800000) (V c main_v58) (V c main_v65) (V c main_v68) (V c main_v69) (V c main_arg14)
        (V c main_v71) (V c main_arg16) (V c main_v73) (V c main_arg18)) := by
  show (cfg2.win 9).cut (grid2.coords t) ((dat2 V c).after 9 t) = _
  rw [after2_9]
  unfold out2_9
  rw [View.canon_unit_zero hz2]
  simp only [View.ld_unit_zero (S := S10000x64) hz2, View.ld_unit_zero (S := S64x64) hz2, View.ld_unit_zero (S := S64x32) hz2,
    View.ld_unit_zero (S := S32x1) hz2, View.ld_unit_zero (S := S64) hz1, View.ld_unit_zero (S := S32) hz1, View.ld_unit_zero (S := S1) hz1]
  rw [pay_eq, whole2, whole3, whole4, whole5, whole6, whole7, whole8]
  funext y
  obtain ⟨r, u, rfl⟩ : ∃ (r : Fin 10000) (u : Fin 1), y = ix2 r u := ⟨y 0, y 1, eq_ix2 y⟩
  have ht : t.val < 80 := (show t.val < grid2.N from t.isLt).trans_eq N_2
  obtain ⟨e0, e1, -⟩ := idx_facts t
  let p : Fin 800000 := ⟨t.val * 10000 + r.val, by have := r.isLt; omega⟩
  have hemb : ((cfg2.win 9).blk t).view.emb (ix2 r u) = ix2 p u := by
    funext a; apply Fin.ext
    match a with
    | ⟨0, _⟩ => show win2_9.index t (0 : Fin 2) * 10000 + 1 * r.val = t.val * 10000 + r.val; omega
    | ⟨1, _⟩ => show win2_9.index t (1 : Fin 2) * 1 + 1 * u.val = u.val; omega
  show Spec.edge (a := 10000) (iblk2 V c 0 t) (iblk2 V c 1 t) (V c main_v68) (V c main_v69) (V c main_arg14)
      (V c main_v71) (V c main_arg16) (V c main_v73) (V c main_arg18) (ix2 r u)
    = Spec.edge (a := 800000) (V c main_v58) (V c main_v65) (V c main_v68) (V c main_v69) (V c main_arg14)
      (V c main_v71) (V c main_arg16) (V c main_v73) (V c main_arg18) (((cfg2.win 9).blk t).view.emb (ix2 r u))
  rw [hemb]
  exact Spec.edge_rows (V c main_v58) (V c main_v65) (iblk2 V c 0 t) (iblk2 V c 1 t) (V c main_v68) (V c main_v69)
    (V c main_arg14) (V c main_v71) (V c main_arg16) (V c main_v73) (V c main_arg18) p r u
    (fun k => rows0 V c t r k p rfl) (fun k => rows1 V c t r k p rfl)

/-- An index of the result array is in point t's block iff each coordinate is in the block's range. -/
theorem mem_blk (t : Fin cfg2.N) (i : S800000x1.Idx) :
    i ∈ ((cfg2.win 9).blk t).view.set ↔ ∀ a : Fin 2, win2_9.index t a * S10000x1.size a ≤ (i a).val ∧ (i a).val < win2_9.index t a * S10000x1.size a + S10000x1.size a := by
  show i ∈ ((View.whole main_v74).slice (win2_9.rect t)).set ↔ _
  rw [View.set_slice_whole, Rect.mem_set_unit]
  exact Iff.rfl

/-- The eighty blocks tile the result array: row i is in block i / 10000. -/
theorem cover (i : S800000x1.Idx) : ∃ t : Fin cfg2.N, (cfg2.win 9).flush t = true ∧ i ∈ ((cfg2.win 9).blk t).view.set := by
  have hi0 : (i 0).val < 800000 := (i 0).isLt
  have hi1 : (i 1).val < 1 := (i 1).isLt
  have hN : cfg2.N = 80 := N_2
  let t : Fin cfg2.N := ⟨(i 0).val / 10000, by rw [hN]; omega⟩
  have htv : t.val = (i 0).val / 10000 := rfl
  refine ⟨t, flush2_9 t, ?_⟩
  rw [mem_blk]
  obtain ⟨e0, e1, -⟩ := idx_facts t
  intro a
  match a with
  | ⟨0, _⟩ => show win2_9.index t (0 : Fin 2) * 10000 ≤ (i 0).val ∧ (i 0).val < win2_9.index t (0 : Fin 2) * 10000 + 10000; omega
  | ⟨1, _⟩ => show win2_9.index t (1 : Fin 2) * 1 ≤ (i 1).val ∧ (i 1).val < win2_9.index t (1 : Fin 2) * 1 + 1; omega

/-- THE RESULT ARRAY after the stage: `Spec.edge` of the arrays the stage was entered with. -/
theorem final (c : Dev nD) : (dat2 V c).arrAt 9 cfg2.N
    = Spec.edge (a := 800000) (V c main_v58) (V c main_v65) (V c main_v68) (V c main_v69) (V c main_arg14)
        (V c main_v71) (V c main_arg16) (V c main_v73) (V c main_arg18) :=
  (dat2 V c).arrAt_eq_of_cover 9 _ (fun t _ => flushed_eq V c t) cover

end Cert.KernelIdeal.Stage2

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.MeanLaw.lean ====
/-
  Two laws that join the program's spelling of the host steps to the specification's.

  * The mean: the summed messages times the reciprocal of the clamped in-degree is the sum divided by the clamped
    in-degree — the divisor is at least one, hence not zero, and then x · (1 / c) = x / c on every extended real.
  * The first-layer weight: a change of float format is the identity on the extended reals, and the upper / lower 64
    rows of the transposed weight are the row slices the program cuts.
-/
import proofs.«100353_j30889404793607_2_alg».proof.Proof.HostChains
import proofs.«100353_j30889404793607_2_alg».proof.Proof.LibRowOps
import proofs.«100353_j30889404793607_2_alg».proof.Proof.Spec
import Idealize.ShloMosaic.Lib.IdealHost

set_option maxRecDepth 16384

noncomputable section

namespace Cert.KernelIdeal.KValue

open Idealize.ShloMosaic Idealize.ShloMosaic.TcCoe Idealize.SL.Sem Idealize.ShloMosaic.StableHlo Idealize.ShloMosaic.ValueIdx
open Cert.KernelIdeal Cert.KernelIdeal.Gen

/-! ## The mean -/

/-- The reciprocal of a count clamped below at one, at node p (the count an arbitrary vector). -/
theorem invOf_apply (n : (⟨S50000, .f32⟩ : BufTy).Contents (Elt Ideal)) (p : Fin 50000) :
    Host.divf (broadcastInDim S50000 ![] bcast_S_S50000 (constant (F := Ideal) S_ .f32 0x3F800000#32))
      (maximumf n (broadcastInDim S50000 ![] bcast_S_S50000 (constant (F := Ideal) S_ .f32 0x3F800000#32))) (ix1 p)
      = Ideal.div 1 (max (n (ix1 p)) (Ideal.ofBits .f32 0x3F800000#32)) := by
  rw [hostDivf_apply, maximumf_apply, Idealize.ShloMosaic.ValueIdx.broadcastInDim_scalar_apply, constant_apply,
    Idealize.ShloMosaic.Ideal.ofBits_one_f32]

/-- A matrix times per-row reciprocals of clamped counts is the matrix divided, row by row, by the clamped counts
    (the factors and the counts arbitrary vectors related entry by entry). -/
theorem meanWith_eq (iv n : (⟨S50000, .f32⟩ : BufTy).Contents (Elt Ideal)) (S : (⟨S50000x128, .f32⟩ : BufTy).Contents (Elt Ideal))
    (h : ∀ p : Fin 50000, iv (ix1 p) = Ideal.div 1 (max (n (ix1 p)) (Ideal.ofBits .f32 0x3F800000#32))) :
    meanWith iv S = Spec.meanOf S n := by
  funext j
  obtain ⟨p, q, rfl⟩ : ∃ (p : Fin 50000) (q : Fin 128), j = ix2 p q := ⟨j 0, j 1, eq_ix2 j⟩
  unfold meanWith Spec.meanOf
  show S (ix2 p q) * (broadcastInDim S50000x128 ![0, 1] bcast_S50000x1_S50000x128_0_1
      (broadcastInDim S50000x1 ![0] bcast_S50000_S50000x1_0 iv)) (ix2 p q)
    = Ideal.div (S (ix2 p q)) (max (n (ix1 p)) (Ideal.ofBits .f32 0x3F800000#32))
  rw [Cert.LibRowOps.broadcastInDim_a1_ab_apply, Cert.LibRowOps.broadcastInDim_a_a1_apply, h p]
  exact Spec.mul_inv_eq_div _ _ (Spec.clamp_ne_zero _)

/-- THE MEAN: the sum times the reciprocal of the clamped in-degree is the sum divided by the clamped in-degree. -/
theorem mean_eq (e : EdgeList) (S : (⟨S50000x128, .f32⟩ : BufTy).Contents (Elt Ideal)) :
    mean e S = Spec.meanOf S (cnt e) :=
  meanWith_eq (inv e) (cnt e) S (fun p => invOf_apply (cnt e) p)

/-! ## The first-layer weight's two halves -/

theorem top_eq (w : (⟨S128x64, .f32⟩ : BufTy).Contents (Elt Ideal)) :
    extractStridedSlice S64x64 ![0, 0] (truncf (F := Ideal) .bf16 w bitsLt_bf16_f32) slices_S128x64_S64x64_0_0 = Spec.top w := by
  funext j
  obtain ⟨r, q, rfl⟩ : ∃ (r : Fin 64) (q : Fin 64), j = ix2 r q := ⟨j 0, j 1, eq_ix2 j⟩
  exact slice2_axis0_apply 0 _ _ r q (Fin.castAdd 64 r) (by simp)

theorem bot_eq (w : (⟨S128x64, .f32⟩ : BufTy).Contents (Elt Ideal)) :
    extractStridedSlice S64x64 ![64, 0] (truncf (F := Ideal) .bf16 w bitsLt_bf16_f32) slices_S128x64_S64x64_64_0 = Spec.bot w := by
  funext j
  obtain ⟨r, q, rfl⟩ : ∃ (r : Fin 64) (q : Fin 64), j = ix2 r q := ⟨j 0, j 1, eq_ix2 j⟩
  exact slice2_axis0_apply 64 _ _ r q (Fin.natAdd 64 r) (Fin.coe_natAdd 64 r)

end Cert.KernelIdeal.KValue

end
-- ==== Proof.KernelValue.lean ====
/-
  The program's result as the specification's network function of the argument arrays.

  Stage by stage: each stage's result array is the specification's stage function of the arrays the stage was entered
  with (Stage0 / Stage1 / Stage2), and those arrays are the host operations' functions of the arguments and of the
  previous stage's result (HostChains). Two laws join the program's spelling to the specification's:
  * the mean: the summed messages times the reciprocal of the clamped in-degree is the sum divided by the clamped
    in-degree — the divisor is at least one, hence not zero, and then x · (1 / c) = x / c on every extended real;
  * the weights: a change of float format is the identity on the extended reals, and the upper / lower 64 rows of
    the transposed first-layer weight are the row slices the program cuts.
-/
import proofs.«100353_j30889404793607_2_alg».proof.Proof.HostChains
import proofs.«100353_j30889404793607_2_alg».proof.Proof.Stage0
import proofs.«100353_j30889404793607_2_alg».proof.Proof.Stage1
import proofs.«100353_j30889404793607_2_alg».proof.Proof.Stage2
import proofs.«100353_j30889404793607_2_alg».proof.Proof.MeanLaw
import Idealize.ShloMosaic.Lib.IdealHost

set_option maxRecDepth 16384

noncomputable section

namespace Cert.KernelIdeal.KValue

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- An argument array as launched. -/
abbrev argv (b : Ref sig .tc) : Buf (Elt Ideal) ((c : Thread nD τ).loc b) := m ((c : Thread nD τ).loc b)

/-! ## The first stage -/

/-- The hidden features: the first stage's result as the specification states it. -/
def hK : S50000x128.Idx → EReal :=
  Spec.sageBN (a := 50000) (Spec.meanOf (aggr (argv m c main_arg1) (argv m c main_arg0)) (cnt (argv m c main_arg1)))
    (argv m c main_arg0)
    (transpose S128x128 [1, 0] (argv m c main_arg3) transposes_S128x128_S128x128_1_0)
    (transpose S128x128 [1, 0] (argv m c main_arg5) transposes_S128x128_S128x128_1_0)
    (argv m c main_arg4) (argv m c main_arg6) (argv m c main_arg7) (argv m c main_arg8) (argv m c main_arg9)

theorem stage0_value : (dat0 (V1 m ρ) c).arrAt 9 cfg0.N = hK m c := by
  rw [Stage0.final (V1 m ρ) c]
  show Spec.sageBN (a := 50000) (W1 m ρ c (Proc.devRef .tc main_v28)) (W1 m ρ c (Proc.devRef .tc main_arg0))
      (W1 m ρ c (Proc.devRef .tc main_v30)) (W1 m ρ c (Proc.devRef .tc main_v32)) (W1 m ρ c (Proc.devRef .tc main_arg4))
      (W1 m ρ c (Proc.devRef .tc main_arg6)) (W1 m ρ c (Proc.devRef .tc main_arg7)) (W1 m ρ c (Proc.devRef .tc main_arg8))
      (W1 m ρ c (Proc.devRef .tc main_arg9)) = _
  rw [W1_v28, W1_v30, W1_v32, W1_arg m ρ c main_arg0 (by simp), W1_arg m ρ c main_arg4 (by simp), W1_arg m ρ c main_arg6 (by simp),
    W1_arg m ρ c main_arg7 (by simp), W1_arg m ρ c main_arg8 (by simp), W1_arg m ρ c main_arg9 (by simp), mean_eq]
  rfl

/-! ## The second stage -/

theorem W2_v33 : W2 m ρ c (Proc.devRef .tc main_v33) = hK m c :=
  (W2_arr m ρ c 9).trans (stage0_value m ρ c)

/-- The embedding: the second stage's result as the specification states it. -/
def zK : S50000x64.Idx → EReal :=
  Spec.sage (a := 50000) (Spec.meanOf (aggr (argv m c main_arg1) (hK m c)) (cnt (argv m c main_arg1))) (hK m c)
    (transpose S128x64 [1, 0] (argv m c main_arg10) transposes_S64x128_S128x64_1_0)
    (transpose S128x64 [1, 0] (argv m c main_arg12) transposes_S64x128_S128x64_1_0)
    (argv m c main_arg11)

theorem stage1_value : (dat1 (V3 m ρ) c).arrAt 5 cfg1.N = zK m c := by
  rw [Stage1.final (V3 m ρ) c]
  show Spec.sage (a := 50000) (W3 m ρ c (Proc.devRef .tc main_v46)) (W3 m ρ c (Proc.devRef .tc main_v33))
      (W3 m ρ c (Proc.devRef .tc main_v48)) (W3 m ρ c (Proc.devRef .tc main_v50)) (W3 m ρ c (Proc.devRef .tc main_arg11)) = _
  rw [W3_v46, W3_v48, W3_v50, W3_keep m ρ c main_v33 (by simp), W3_keep m ρ c main_arg11 (by simp),
    W2_v15, W2_v1, W2_v3, W2_v33, W2_arg10, W2_arg11, W2_arg12]
  show Spec.sage (a := 50000) (mean (argv m c main_arg1) (aggr (argv m c main_arg1) (hK m c))) _ _ _ _ = _
  rw [mean_eq]
  rfl

/-! ## The third stage -/

theorem W4_v51 : W4 m ρ c (Proc.devRef .tc main_v51) = zK m c :=
  (W4_arr m ρ c 5).trans (stage1_value m ρ c)

theorem W4_v5 : W4 m ρ c (Proc.devRef .tc main_v5) = row0 (argv m c main_arg2) :=
  (W4_of_ne m ρ c main_v5 (by decide)).trans ((W3_keep m ρ c main_v5 (by simp)).trans (W2_v5 m ρ c))
theorem W4_v7 : W4 m ρ c (Proc.devRef .tc main_v7) = row1 (argv m c main_arg2) :=
  (W4_of_ne m ρ c main_v7 (by decide)).trans ((W3_keep m ρ c main_v7 (by simp)).trans (W2_v7 m ρ c))
theorem W4_arg13 : W4 m ρ c (Proc.devRef .tc main_arg13) = argv m c main_arg13 :=
  (W4_of_ne m ρ c main_arg13 (by decide)).trans ((W3_keep m ρ c main_arg13 (by simp)).trans (W2_arg13 m ρ c))
theorem W4_arg14 : W4 m ρ c (Proc.devRef .tc main_arg14) = argv m c main_arg14 :=
  (W4_of_ne m ρ c main_arg14 (by decide)).trans ((W3_keep m ρ c main_arg14 (by simp)).trans (W2_arg14 m ρ c))
theorem W4_arg15 : W4 m ρ c (Proc.devRef .tc main_arg15) = argv m c main_arg15 :=
  (W4_of_ne m ρ c main_arg15 (by decide)).trans ((W3_keep m ρ c main_arg15 (by simp)).trans (W2_arg15 m ρ c))
theorem W4_arg16 : W4 m ρ c (Proc.devRef .tc main_arg16) = argv m c main_arg16 :=
  (W4_of_ne m ρ c main_arg16 (by decide)).trans ((W3_keep m ρ c main_arg16 (by simp)).trans (W2_arg16 m ρ c))
theorem W4_arg17 : W4 m ρ c (Proc.devRef .tc main_arg17) = argv m c main_arg17 :=
  (W4_of_ne m ρ c main_arg17 (by decide)).trans ((W3_keep m ρ c main_arg17 (by simp)).trans (W2_arg17 m ρ c))
theorem W4_arg18 : W4 m ρ c (Proc.devRef .tc main_arg18) = argv m c main_arg18 :=
  (W4_of_ne m ρ c main_arg18 (by decide)).trans ((W3_keep m ρ c main_arg18 (by simp)).trans (W2_arg18 m ρ c))

/-- The specification's network function of the argument arrays as launched. -/
def modelK : S800000x1.Idx → EReal :=
  Spec.model (aggr (argv m c main_arg1)) (cnt (argv m c main_arg1)) (gat (row0 (argv m c main_arg2))) (gat (row1 (argv m c main_arg2)))
        (argv m c main_arg0)
        (transpose S128x128 [1, 0] (argv m c main_arg3) transposes_S128x128_S128x128_1_0) (argv m c main_arg4)
        (transpose S128x128 [1, 0] (argv m c main_arg5) transposes_S128x128_S128x128_1_0)
        (argv m c main_arg6) (argv m c main_arg7) (argv m c main_arg8) (argv m c main_arg9)
        (transpose S128x64 [1, 0] (argv m c main_arg10) transposes_S64x128_S128x64_1_0) (argv m c main_arg11)
        (transpose S128x64 [1, 0] (argv m c main_arg12) transposes_S64x128_S128x64_1_0)
        (transpose S128x64 [1, 0] (argv m c main_arg13) transposes_S64x128_S128x64_1_0) (argv m c main_arg14)
        (transpose S64x32 [1, 0] (argv m c main_arg15) transposes_S32x64_S64x32_1_0) (argv m c main_arg16)
        (transpose S32x1 [1, 0] (argv m c main_arg17) transposes_S1x32_S32x1_1_0) (argv m c main_arg18)

/-- THE RESULT: the third stage's result array is the specification's network function of the arguments. -/
theorem kernel_value : (dat2 (V5 m ρ) c).arrAt 9 cfg2.N = modelK m c := by
  rw [Stage2.final (V5 m ρ) c]
  show Spec.edge (a := 800000) (W5 m ρ c (Proc.devRef .tc main_v58)) (W5 m ρ c (Proc.devRef .tc main_v65))
      (W5 m ρ c (Proc.devRef .tc main_v68)) (W5 m ρ c (Proc.devRef .tc main_v69)) (W5 m ρ c (Proc.devRef .tc main_arg14))
      (W5 m ρ c (Proc.devRef .tc main_v71)) (W5 m ρ c (Proc.devRef .tc main_arg16)) (W5 m ρ c (Proc.devRef .tc main_v73))
      (W5 m ρ c (Proc.devRef .tc main_arg18)) = _
  rw [W5_v58, W5_v65, W5_v68, W5_v69, W5_v71, W5_v73, W5_keep m ρ c main_arg14 (by simp), W5_keep m ρ c main_arg16 (by simp),
    W5_keep m ρ c main_arg18 (by simp), W4_v51, W4_v5, W4_v7, W4_arg13, W4_arg14, W4_arg15, W4_arg16, W4_arg17, W4_arg18,
    top_eq, bot_eq]
  rfl

end Cert.KernelIdeal.KValue

end
-- ==== Proof.RefValue.lean ====
/-
  The reference program's result is the specification's network function.

  The reference is read stage by stage, each stage as an equation between whole arrays whose operands are arbitrary:
  the mean over incoming edges (a quotient by the clamped in-degree, repeated along the rows), the two dense node
  stages (two matrix products, a bias row, and for the first the normalisation and the clamp at zero), and the pair
  stage (the joined rows against a weight matrix as the sum of the two halves' products, two clamped dense layers, and
  the logistic function written as 1 / (1 + exp (−x))). The three irregular steps (a gather along the edges' sources
  summed at their destinations, the in-degree count, the two row gathers of the pair stage) stay closed: they enter
  only as functions of their table, and are never read at an index.
-/
import proofs.«100353_j30889404793607_2_alg».proof.Proof.Gen.ReferenceIdeal.Read
import proofs.«100353_j30889404793607_2_alg».proof.Proof.Spec
import proofs.«100353_j30889404793607_2_alg».proof.Proof.LibRowOps
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## Single operations read at an index -/

/-- A product of an a × b by a b × c array contracting the shared axis, at (p, n): the specification's entry. -/
theorem hostDot_apply {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : M a b → EReal) (r : M b c → EReal) (p : Fin a) (n : Fin c) :
    Host.dotGeneral (F := Ideal) (φ₁ := .f32) (φ₂ := .f32) D none l r (ix2 p n) = dot l r p n :=
  (Ideal.dotGeneral_apply D none .single l r (ix2 p n)).trans
    (Cert.LibRowOps.sum_contr D hrk hsz hl0 hl1 hr0 hr1 l r p n)

/-- A vector laid out as a row and repeated along the rows reads, at (p, q), its entry q. -/
theorem biasRow_apply {a b : ℕ} {α : Type} (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (v : V1 b → α) (p : Fin a) (q : Fin b) :
    broadcastInDim ⟨2, ![a, b]⟩ ![0, 1] h2 (broadcastInDim ⟨2, ![1, b]⟩ ![1] h1 v) (ix2 p q) = v (ix1 q) :=
  (Cert.LibRowOps.broadcastInDim_1b_ab_apply h2 _ p q).trans (Cert.LibRowOps.broadcastInDim_b_1b_apply h1 v 0 q)

/-- A vector laid out as a column and repeated along the columns reads, at (p, q), its entry p. -/
theorem column_apply {a b : ℕ} {α : Type} (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (v : V1 a → α) (p : Fin a) (q : Fin b) :
    broadcastInDim ⟨2, ![a, b]⟩ ![0, 1] h2 (broadcastInDim ⟨2, ![a, 1]⟩ ![0] h1 v) (ix2 p q) = v (ix1 p) :=
  (Cert.LibRowOps.broadcastInDim_a1_ab_apply h2 _ p q).trans (Cert.LibRowOps.broadcastInDim_a_a1_apply h1 v p 0)

/-- A constant repeated over any shape reads the constant. -/
theorem fill_apply {t : Shape} (h : (⟨0, ![]⟩ : Shape).BroadcastsInDim t (![] : Fin 0 → Fin t.rank)) (w : BitVec 32)
    (j : t.Idx) : broadcastInDim t ![] h (constant (F := Ideal) ⟨0, ![]⟩ .f32 w) j = Ideal.ofBits .f32 w :=
  Cert.LibRowOps.broadcastInDim_scalar_apply h _ j

/-! ## The mean over incoming edges -/

/-- The summed messages divided by the clamped in-degree, the in-degree laid out as a column and repeated along the
    columns: the specification's mean. -/
theorem mean_eq (S : M 50000 128 → EReal) (c : V1 50000 → EReal) :
    Host.divf (F := Ideal) (φ := .f32) S
        (broadcastInDim S50000x128 ![0, 1] bcast_S50000x1_S50000x128_0_1
          (broadcastInDim S50000x1 ![0] bcast_S50000_S50000x1_0
            (maximumf (F := Ideal) (φ := .f32) c
              (broadcastInDim S50000 ![] bcast_S_S50000 (constant (F := Ideal) S_ .f32 0x3F800000#32)))))
      = meanOf S c := by
  funext j
  obtain ⟨p, q, rfl⟩ : ∃ (p : Fin 50000) (q : Fin 128), j = ix2 p q := ⟨j 0, j 1, eq_ix2 j⟩
  refine congrArg (Ideal.div (S (ix2 p q))) ?_
  refine (column_apply bcast_S50000_S50000x1_0 bcast_S50000x1_S50000x128_0_1 _ p q).trans ?_
  exact congrArg (max (c (ix1 p))) (fill_apply bcast_S_S50000 _ (ix1 p))

/-! ## The dense node stages -/

/-- The first node stage from its two products: bias, normalisation and the clamp at zero, entry by entry. -/
theorem sageBN_of_products {a : ℕ} (A X : M a 128 → EReal) (WL WR : M 128 128 → EReal) (bl γ β μ var : V1 128 → EReal)
    (P1 P2 : M a 128 → EReal) (hP1 : ∀ p q, P1 (ix2 p q) = dot A WL p q) (hP2 : ∀ p q, P2 (ix2 p q) = dot X WR p q)
    (h1 : (⟨1, ![128]⟩ : Shape).BroadcastsInDim ⟨2, ![1, 128]⟩ (![1] : Fin 1 → Fin 2))
    (h2 : (⟨2, ![1, 128]⟩ : Shape).BroadcastsInDim ⟨2, ![a, 128]⟩ (![0, 1] : Fin 2 → Fin 2))
    (h0 : (⟨0, ![]⟩ : Shape).BroadcastsInDim ⟨1, ![128]⟩ (![] : Fin 0 → Fin 1))
    (hz : (⟨0, ![]⟩ : Shape).BroadcastsInDim ⟨2, ![a, 128]⟩ (![] : Fin 0 → Fin 2)) :
    maximumf (F := Ideal) (φ := .f32)
        (addf (mulf (mulf (subf (addf (addf P1
                    (broadcastInDim ⟨2, ![a, 128]⟩ ![0, 1] h2 (broadcastInDim ⟨2, ![1, 128]⟩ ![1] h1 bl))) P2)
                  (broadcastInDim ⟨2, ![a, 128]⟩ ![0, 1] h2 (broadcastInDim ⟨2, ![1, 128]⟩ ![1] h1 μ)))
                (broadcastInDim ⟨2, ![a, 128]⟩ ![0, 1] h2 (broadcastInDim ⟨2, ![1, 128]⟩ ![1] h1
                  (Host.rsqrt (F := Ideal) (φ := .f32)
                    (addf var (broadcastInDim ⟨1, ![128]⟩ ![] h0 (constant (F := Ideal) ⟨0, ![]⟩ .f32 0x3727C5AC#32)))))))
              (broadcastInDim ⟨2, ![a, 128]⟩ ![0, 1] h2 (broadcastInDim ⟨2, ![1, 128]⟩ ![1] h1 γ)))
          (broadcastInDim ⟨2, ![a, 128]⟩ ![0, 1] h2 (broadcastInDim ⟨2, ![1, 128]⟩ ![1] h1 β)))
        (broadcastInDim ⟨2, ![a, 128]⟩ ![] hz (constant (F := Ideal) ⟨0, ![]⟩ .f32 0x00000000#32))
      = sageBN A X WL WR bl γ β μ var := by
  funext j
  obtain ⟨p, q, rfl⟩ : ∃ (p : Fin a) (q : Fin 128), j = ix2 p q := ⟨j 0, j 1, eq_ix2 j⟩
  simp only [maximumf, addf, mulf, subf, Host.rsqrt, Ideal.maximumf_def, Ideal.addf_def, Ideal.mulf_def, Ideal.subf_def,
    Ideal.hostUnary_rsqrt_def, biasRow_apply, fill_apply, hP1, hP2]
  rw [biasRow_apply h1 h2 bl p q, biasRow_apply h1 h2 μ p q, biasRow_apply h1 h2 γ p q, biasRow_apply h1 h2 β p q,
    biasRow_apply h1 h2 _ p q, fill_apply hz _ (ix2 p q)]
  rfl

/-- The second node stage from its two products: the bias row added to the first, then the second. -/
theorem sage_of_products {a : ℕ} (A X : M a 128 → EReal) (WL WR : M 128 64 → EReal) (bl : V1 64 → EReal)
    (P1 P2 : M a 64 → EReal) (hP1 : ∀ p q, P1 (ix2 p q) = dot A WL p q) (hP2 : ∀ p q, P2 (ix2 p q) = dot X WR p q)
    (h1 : (⟨1, ![64]⟩ : Shape).BroadcastsInDim ⟨2, ![1, 64]⟩ (![1] : Fin 1 → Fin 2))
    (h2 : (⟨2, ![1, 64]⟩ : Shape).BroadcastsInDim ⟨2, ![a, 64]⟩ (![0, 1] : Fin 2 → Fin 2)) :
    addf (F := Ideal) (φ := .f32)
        (addf P1 (broadcastInDim ⟨2, ![a, 64]⟩ ![0, 1] h2 (broadcastInDim ⟨2, ![1, 64]⟩ ![1] h1 bl))) P2
      = sage A X WL WR bl := by
  funext j
  obtain ⟨p, q, rfl⟩ : ∃ (p : Fin a) (q : Fin 64), j = ix2 p q := ⟨j 0, j 1, eq_ix2 j⟩
  simp only [addf, Ideal.addf_def, hP1, hP2]
  rw [biasRow_apply h1 h2 bl p q]
  rfl

/-! ## The pair stage -/

/-- Two blocks of 64 columns joined along the columns: a column of the first half reads the first block. -/
theorem concat_left {a : ℕ} (zi zj : M a 64 → EReal)
    (h : Shape.Concatenates [(⟨2, ![a, 64]⟩ : Shape), ⟨2, ![a, 64]⟩] ⟨2, ![a, 128]⟩ 1) (p : Fin a) (k : Fin 64) :
    concatenate ⟨2, ![a, 128]⟩ 1 [⟨⟨2, ![a, 64]⟩, zi⟩, ⟨⟨2, ![a, 64]⟩, zj⟩] h (ix2 p (Fin.castAdd 64 k)) = zi (ix2 p k) :=
  concatenate_pair_apply_left 1 zi zj h (ix2 p (Fin.castAdd 64 k)) rfl (ix2 p k) fun b =>
    match b with
    | ⟨0, _⟩ => rfl
    | ⟨1, _⟩ => rfl

/-- A column of the second half reads the second block, 64 columns to the left. -/
theorem concat_right {a : ℕ} (zi zj : M a 64 → EReal)
    (h : Shape.Concatenates [(⟨2, ![a, 64]⟩ : Shape), ⟨2, ![a, 64]⟩] ⟨2, ![a, 128]⟩ 1) (p : Fin a) (k : Fin 64) :
    concatenate ⟨2, ![a, 128]⟩ 1 [⟨⟨2, ![a, 64]⟩, zi⟩, ⟨⟨2, ![a, 64]⟩, zj⟩] h (ix2 p (Fin.natAdd 64 k)) = zj (ix2 p k) :=
  concatenate_pair_apply_right 1 zi zj h (ix2 p (Fin.natAdd 64 k)) rfl rfl (ix2 p k)
    (fun b hb =>
      match b, hb with
      | ⟨0, _⟩, _ => rfl
      | ⟨1, _⟩, hb => absurd rfl hb)
    (by show k.val + 64 = 64 + k.val; omega)

/-- The first hidden layer from the product of the joined rows: the product splits into the two halves' products. -/
theorem hid1_of_product {a : ℕ} (zi zj : M a 64 → EReal) (W : M 128 64 → EReal) (b1 : V1 64 → EReal)
    (C : M a 128 → EReal) (hCi : ∀ p (k : Fin 64), C (ix2 p (Fin.castAdd 64 k)) = zi (ix2 p k))
    (hCj : ∀ p (k : Fin 64), C (ix2 p (Fin.natAdd 64 k)) = zj (ix2 p k))
    (P : M a 64 → EReal) (hP : ∀ p q, P (ix2 p q) = dot C W p q)
    (h1 : (⟨1, ![64]⟩ : Shape).BroadcastsInDim ⟨2, ![1, 64]⟩ (![1] : Fin 1 → Fin 2))
    (h2 : (⟨2, ![1, 64]⟩ : Shape).BroadcastsInDim ⟨2, ![a, 64]⟩ (![0, 1] : Fin 2 → Fin 2))
    (hz : (⟨0, ![]⟩ : Shape).BroadcastsInDim ⟨2, ![a, 64]⟩ (![] : Fin 0 → Fin 2)) :
    maximumf (F := Ideal) (φ := .f32)
        (addf P (broadcastInDim ⟨2, ![a, 64]⟩ ![0, 1] h2 (broadcastInDim ⟨2, ![1, 64]⟩ ![1] h1 b1)))
        (broadcastInDim ⟨2, ![a, 64]⟩ ![] hz (constant (F := Ideal) ⟨0, ![]⟩ .f32 0x00000000#32))
      = hid1 zi zj (top W) (bot W) b1 := by
  funext j
  obtain ⟨p, q, rfl⟩ : ∃ (p : Fin a) (q : Fin 64), j = ix2 p q := ⟨j 0, j 1, eq_ix2 j⟩
  simp only [maximumf, addf, Ideal.maximumf_def, Ideal.addf_def, hP]
  rw [biasRow_apply h1 h2 b1 p q, fill_apply hz _ (ix2 p q), dot_split C zi zj W p q (hCi p) (hCj p)]
  rfl

/-- A dense layer clamped at zero, from its product. -/
theorem hid2_of_product {a : ℕ} (h : M a 64 → EReal) (W : M 64 32 → EReal) (b2 : V1 32 → EReal)
    (P : M a 32 → EReal) (hP : ∀ p q, P (ix2 p q) = dot h W p q)
    (h1 : (⟨1, ![32]⟩ : Shape).BroadcastsInDim ⟨2, ![1, 32]⟩ (![1] : Fin 1 → Fin 2))
    (h2 : (⟨2, ![1, 32]⟩ : Shape).BroadcastsInDim ⟨2, ![a, 32]⟩ (![0, 1] : Fin 2 → Fin 2))
    (hz : (⟨0, ![]⟩ : Shape).BroadcastsInDim ⟨2, ![a, 32]⟩ (![] : Fin 0 → Fin 2)) :
    maximumf (F := Ideal) (φ := .f32)
        (addf P (broadcastInDim ⟨2, ![a, 32]⟩ ![0, 1] h2 (broadcastInDim ⟨2, ![1, 32]⟩ ![1] h1 b2)))
        (broadcastInDim ⟨2, ![a, 32]⟩ ![] hz (constant (F := Ideal) ⟨0, ![]⟩ .f32 0x00000000#32))
      = hid2 h W b2 := by
  funext j
  obtain ⟨p, q, rfl⟩ : ∃ (p : Fin a) (q : Fin 32), j = ix2 p q := ⟨j 0, j 1, eq_ix2 j⟩
  simp only [maximumf, addf, Ideal.maximumf_def, Ideal.addf_def, hP]
  rw [biasRow_apply h1 h2 b2 p q, fill_apply hz _ (ix2 p q)]
  rfl

/-- The last layer: 1 / (1 + exp (−x)) of the product plus the bias is the logistic function of it. -/
theorem outl_of_product {a : ℕ} (h : M a 32 → EReal) (W : M 32 1 → EReal) (b3 : V1 1 → EReal)
    (P : M a 1 → EReal) (hP : ∀ p q, P (ix2 p q) = dot h W p q)
    (h1 : (⟨1, ![1]⟩ : Shape).BroadcastsInDim ⟨2, ![1, 1]⟩ (![1] : Fin 1 → Fin 2))
    (h2 : (⟨2, ![1, 1]⟩ : Shape).BroadcastsInDim ⟨2, ![a, 1]⟩ (![0, 1] : Fin 2 → Fin 2))
    (ho : (⟨0, ![]⟩ : Shape).BroadcastsInDim ⟨2, ![a, 1]⟩ (![] : Fin 0 → Fin 2)) :
    Host.divf (F := Ideal) (φ := .f32)
        (broadcastInDim ⟨2, ![a, 1]⟩ ![] ho (constant (F := Ideal) ⟨0, ![]⟩ .f32 0x3F800000#32))
        (addf (broadcastInDim ⟨2, ![a, 1]⟩ ![] ho (constant (F := Ideal) ⟨0, ![]⟩ .f32 0x3F800000#32))
          (Host.exp (Host.negf
            (addf P (broadcastInDim ⟨2, ![a, 1]⟩ ![0, 1] h2 (broadcastInDim ⟨2, ![1, 1]⟩ ![1] h1 b3))))))
      = outl h W b3 := by
  funext j
  obtain ⟨p, u, rfl⟩ : ∃ (p : Fin a) (u : Fin 1), j = ix2 p u := ⟨j 0, j 1, eq_ix2 j⟩
  simp only [Host.divf, addf, Host.exp, Host.negf, Ideal.hostDivf_def, Ideal.addf_def, Ideal.hostUnary_exp_def,
    Ideal.hostNegf_def, Ideal.negf_def, hP]
  rw [biasRow_apply h1 h2 b3 p u, fill_apply ho _ (ix2 p u), Ideal.ofBits_one_f32]
  rfl

/-! ## The three irregular steps, as the reference prints them -/

/-- The in-degree of every node: ones summed at the edges' destinations (not yet clamped). -/
def cnt (x1 : (⟨S2x800000, .i32⟩ : BufTy).Contents (Elt Ideal)) : S50000.Idx → EReal :=
  Host.scatterAdd (F := Ideal) (φ := .f32) scatter_S50000_S800000x1_S800000_n_0_0_1 (val_main_v15 (F := Ideal))
    (val_main_v16 (F := Ideal) x1) (val_main_v14 (F := Ideal))

/-- The rows of a table gathered along the edges' sources and summed at the edges' destinations. -/
def aggr (x1 : (⟨S2x800000, .i32⟩ : BufTy).Contents (Elt Ideal)) (feat : S50000x128.Idx → EReal) :
    S50000x128.Idx → EReal :=
  Host.scatterAdd (F := Ideal) (φ := .f32) scatter_S50000x128_S800000x1_S800000x128_1_0_0_1 (val_main_v11 (F := Ideal))
    (val_main_v12 (F := Ideal) x1)
    (Host.gather gather_S50000x128_S800000x1_S800000x128_1_0_n_n_0_1_1128 feat (val_main_v9 (F := Ideal) x1))

/-- The rows of a table at the pairs' first ends. -/
def gi (x2 : (⟨S2x800000, .i32⟩ : BufTy).Contents (Elt Ideal)) (z : S50000x64.Idx → EReal) :
    S800000x64.Idx → EReal :=
  Host.gather gather_S50000x64_S800000x1_S800000x64_1_0_n_n_0_1_164 z (val_main_v81 (F := Ideal) x2)

/-- The rows of a table at the pairs' second ends. -/
def gj (x2 : (⟨S2x800000, .i32⟩ : BufTy).Contents (Elt Ideal)) (z : S50000x64.Idx → EReal) :
    S800000x64.Idx → EReal :=
  Host.gather gather_S50000x64_S800000x1_S800000x64_1_0_n_n_0_1_164 z (val_main_v90 (F := Ideal) x2)

/-- The reference's own terms for the irregular steps are these functions of their tables: both convolutions count
    the same in-degrees and use the same index chains. -/
theorem v17_eq (x1 : (⟨S2x800000, .i32⟩ : BufTy).Contents (Elt Ideal)) : val_main_v17 (F := Ideal) x1 = cnt x1 := rfl
theorem v60_eq (x1 : (⟨S2x800000, .i32⟩ : BufTy).Contents (Elt Ideal)) : val_main_v60 (F := Ideal) x1 = cnt x1 := rfl
theorem v13_eq (x0 : (⟨S50000x128, .f32⟩ : BufTy).Contents (Elt Ideal)) (x1 : (⟨S2x800000, .i32⟩ : BufTy).Contents (Elt Ideal)) :
    val_main_v13 (F := Ideal) x0 x1 = aggr x1 x0 := rfl
theorem v56_eq (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 x9 : (⟨S128, .f32⟩ : BufTy).Contents (Elt Ideal)) :
    val_main_v56 (F := Ideal) x0 x1 x3 x4 x5 x6 x7 x8 x9 = aggr x1 (val_main_v46 (F := Ideal) x0 x1 x3 x4 x5 x6 x7 x8 x9) := rfl
theorem v82_eq (x0 : (⟨S50000x128, .f32⟩ : BufTy).Contents (Elt Ideal)) (x1 x2 : (⟨S2x800000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 x9 : (⟨S128, .f32⟩ : BufTy).Contents (Elt Ideal))
    (x10 : (⟨S64x128, .f32⟩ : BufTy).Contents (Elt Ideal)) (x11 : (⟨S64, .f32⟩ : BufTy).Contents (Elt Ideal)) (x12 : (⟨S64x128, .f32⟩ : BufTy).Contents (Elt Ideal)) :
    val_main_v82 (F := Ideal) x0 x1 x2 x3 x4 x5 x6 x7 x8 x9 x10 x11 x12 = gi x2 (val_main_v73 (F := Ideal) x0 x1 x3 x4 x5 x6 x7 x8 x9 x10 x11 x12) := rfl
theorem v91_eq (x0 : (⟨S50000x128, .f32⟩ : BufTy).Contents (Elt Ideal)) (x1 x2 : (⟨S2x800000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 x9 : (⟨S128, .f32⟩ : BufTy).Contents (Elt Ideal))
    (x10 : (⟨S64x128, .f32⟩ : BufTy).Contents (Elt Ideal)) (x11 : (⟨S64, .f32⟩ : BufTy).Contents (Elt Ideal)) (x12 : (⟨S64x128, .f32⟩ : BufTy).Contents (Elt Ideal)) :
    val_main_v91 (F := Ideal) x0 x1 x2 x3 x4 x5 x6 x7 x8 x9 x10 x11 x12 = gj x2 (val_main_v73 (F := Ideal) x0 x1 x3 x4 x5 x6 x7 x8 x9 x10 x11 x12) := rfl

/-! ## The reference's result -/

theorem result_eq (x0 : (⟨S50000x128, .f32⟩ : BufTy).Contents (Elt Ideal))
    (x1 x2 : (⟨S2x800000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 x9 : (⟨S128, .f32⟩ : BufTy).Contents (Elt Ideal))
    (x10 : (⟨S64x128, .f32⟩ : BufTy).Contents (Elt Ideal))
    (x11 : (⟨S64, .f32⟩ : BufTy).Contents (Elt Ideal))
    (x12 x13 : (⟨S64x128, .f32⟩ : BufTy).Contents (Elt Ideal))
    (x14 : (⟨S64, .f32⟩ : BufTy).Contents (Elt Ideal))
    (x15 : (⟨S32x64, .f32⟩ : BufTy).Contents (Elt Ideal))
    (x16 : (⟨S32, .f32⟩ : BufTy).Contents (Elt Ideal))
    (x17 : (⟨S1x32, .f32⟩ : BufTy).Contents (Elt Ideal))
    (x18 : (⟨S1, .f32⟩ : BufTy).Contents (Elt Ideal)) :
    val_main_v115 (F := Ideal) x0 x1 x2 x3 x4 x5 x6 x7 x8 x9 x10 x11 x12 x13 x14 x15 x16 x17 x18
      = model (aggr x1) (cnt x1) (gi x2) (gj x2) x0
          (transpose S128x128 [1, 0] x3 transposes_S128x128_S128x128_1_0) x4
          (transpose S128x128 [1, 0] x5 transposes_S128x128_S128x128_1_0) x6 x7 x8 x9
          (transpose S128x64 [1, 0] x10 transposes_S64x128_S128x64_1_0) x11
          (transpose S128x64 [1, 0] x12 transposes_S64x128_S128x64_1_0)
          (transpose S128x64 [1, 0] x13 transposes_S64x128_S128x64_1_0) x14
          (transpose S64x32 [1, 0] x15 transposes_S32x64_S64x32_1_0) x16
          (transpose S32x1 [1, 0] x17 transposes_S1x32_S32x1_1_0) x18 := by
  -- the first convolution: the mean, then the dense stage with its normalisation
  have e22 : val_main_v22 (F := Ideal) x0 x1 = meanOf (aggr x1 x0) (cnt x1) := mean_eq (aggr x1 x0) (cnt x1)
  have e46 : val_main_v46 (F := Ideal) x0 x1 x3 x4 x5 x6 x7 x8 x9
      = sageBN (val_main_v22 (F := Ideal) x0 x1) x0 (val_main_v23 (F := Ideal) x3) (val_main_v28 (F := Ideal) x5) x4 x6 x7 x8 x9 :=
    sageBN_of_products (val_main_v22 (F := Ideal) x0 x1) x0 (val_main_v23 (F := Ideal) x3) (val_main_v28 (F := Ideal) x5) x4 x6 x7 x8 x9
      (val_main_v24 (F := Ideal) x0 x1 x3) (val_main_v29 (F := Ideal) x0 x5)
      (fun p q => hostDot_apply dot_S50000x128_S128x128_S50000x128_1_0_0_1_n_n rfl rfl lhs_main_v24_0 lhs_main_v24_1 rhs_main_v24_0 rhs_main_v24_1 _ _ p q)
      (fun p q => hostDot_apply dot_S50000x128_S128x128_S50000x128_1_0_0_1_n_n rfl rfl lhs_main_v29_0 lhs_main_v29_1 rhs_main_v29_0 rhs_main_v29_1 _ _ p q)
      bcast_S128_S1x128_1 bcast_S1x128_S50000x128_0_1 bcast_S_S128 bcast_S_S50000x128
  -- the second convolution: the same irregular steps on the first's result
  have e65 : val_main_v65 (F := Ideal) x0 x1 x3 x4 x5 x6 x7 x8 x9
      = meanOf (aggr x1 (val_main_v46 (F := Ideal) x0 x1 x3 x4 x5 x6 x7 x8 x9)) (cnt x1) :=
    mean_eq (aggr x1 (val_main_v46 (F := Ideal) x0 x1 x3 x4 x5 x6 x7 x8 x9)) (cnt x1)
  have e73 : val_main_v73 (F := Ideal) x0 x1 x3 x4 x5 x6 x7 x8 x9 x10 x11 x12
      = sage (val_main_v65 (F := Ideal) x0 x1 x3 x4 x5 x6 x7 x8 x9) (val_main_v46 (F := Ideal) x0 x1 x3 x4 x5 x6 x7 x8 x9) (val_main_v66 (F := Ideal) x10) (val_main_v71 (F := Ideal) x12) x11 :=
    sage_of_products (val_main_v65 (F := Ideal) x0 x1 x3 x4 x5 x6 x7 x8 x9) (val_main_v46 (F := Ideal) x0 x1 x3 x4 x5 x6 x7 x8 x9) (val_main_v66 (F := Ideal) x10) (val_main_v71 (F := Ideal) x12) x11
      (val_main_v67 (F := Ideal) x0 x1 x3 x4 x5 x6 x7 x8 x9 x10) (val_main_v72 (F := Ideal) x0 x1 x3 x4 x5 x6 x7 x8 x9 x12)
      (fun p q => hostDot_apply dot_S50000x128_S128x64_S50000x64_1_0_0_1_n_n rfl rfl lhs_main_v67_0 lhs_main_v67_1 rhs_main_v67_0 rhs_main_v67_1 _ _ p q)
      (fun p q => hostDot_apply dot_S50000x128_S128x64_S50000x64_1_0_0_1_n_n rfl rfl lhs_main_v72_0 lhs_main_v72_1 rhs_main_v72_0 rhs_main_v72_1 _ _ p q)
      bcast_S64_S1x64_1 bcast_S1x64_S50000x64_0_1
  -- the pair stage
  have e98 : val_main_v98 (F := Ideal) x0 x1 x2 x3 x4 x5 x6 x7 x8 x9 x10 x11 x12 x13 x14
      = hid1 (val_main_v82 (F := Ideal) x0 x1 x2 x3 x4 x5 x6 x7 x8 x9 x10 x11 x12) (val_main_v91 (F := Ideal) x0 x1 x2 x3 x4 x5 x6 x7 x8 x9 x10 x11 x12) (top (val_main_v93 (F := Ideal) x13)) (bot (val_main_v93 (F := Ideal) x13)) x14 :=
    hid1_of_product (val_main_v82 (F := Ideal) x0 x1 x2 x3 x4 x5 x6 x7 x8 x9 x10 x11 x12) (val_main_v91 (F := Ideal) x0 x1 x2 x3 x4 x5 x6 x7 x8 x9 x10 x11 x12) (val_main_v93 (F := Ideal) x13) x14
      (val_main_v92 (F := Ideal) x0 x1 x2 x3 x4 x5 x6 x7 x8 x9 x10 x11 x12)
      (fun p k => concat_left _ _ concatenates_S800000x64_S800000x64_S800000x128_d1 p k)
      (fun p k => concat_right _ _ concatenates_S800000x64_S800000x64_S800000x128_d1 p k)
      (val_main_v94 (F := Ideal) x0 x1 x2 x3 x4 x5 x6 x7 x8 x9 x10 x11 x12 x13)
      (fun p q => hostDot_apply dot_S800000x128_S128x64_S800000x64_1_0_0_1_n_n rfl rfl lhs_main_v94_0 lhs_main_v94_1 rhs_main_v94_0 rhs_main_v94_1 _ _ p q)
      bcast_S64_S1x64_1 bcast_S1x64_S800000x64_0_1 bcast_S_S800000x64
  have e104 : val_main_v104 (F := Ideal) x0 x1 x2 x3 x4 x5 x6 x7 x8 x9 x10 x11 x12 x13 x14 x15 x16
      = hid2 (val_main_v98 (F := Ideal) x0 x1 x2 x3 x4 x5 x6 x7 x8 x9 x10 x11 x12 x13 x14) (val_main_v99 (F := Ideal) x15) x16 :=
    hid2_of_product (val_main_v98 (F := Ideal) x0 x1 x2 x3 x4 x5 x6 x7 x8 x9 x10 x11 x12 x13 x14) (val_main_v99 (F := Ideal) x15) x16 (val_main_v100 (F := Ideal) x0 x1 x2 x3 x4 x5 x6 x7 x8 x9 x10 x11 x12 x13 x14 x15)
      (fun p q => hostDot_apply dot_S800000x64_S64x32_S800000x32_1_0_0_1_n_n rfl rfl lhs_main_v100_0 lhs_main_v100_1 rhs_main_v100_0 rhs_main_v100_1 _ _ p q)
      bcast_S32_S1x32_1 bcast_S1x32_S800000x32_0_1 bcast_S_S800000x32
  have e115 : val_main_v115 (F := Ideal) x0 x1 x2 x3 x4 x5 x6 x7 x8 x9 x10 x11 x12 x13 x14 x15 x16 x17 x18
      = outl (val_main_v104 (F := Ideal) x0 x1 x2 x3 x4 x5 x6 x7 x8 x9 x10 x11 x12 x13 x14 x15 x16) (val_main_v105 (F := Ideal) x17) x18 :=
    outl_of_product (val_main_v104 (F := Ideal) x0 x1 x2 x3 x4 x5 x6 x7 x8 x9 x10 x11 x12 x13 x14 x15 x16) (val_main_v105 (F := Ideal) x17) x18 (val_main_v106 (F := Ideal) x0 x1 x2 x3 x4 x5 x6 x7 x8 x9 x10 x11 x12 x13 x14 x15 x16 x17)
      (fun p q => hostDot_apply dot_S800000x32_S32x1_S800000x1_1_0_0_1_n_n rfl rfl lhs_main_v106_0 lhs_main_v106_1 rhs_main_v106_0 rhs_main_v106_1 _ _ p q)
      bcast_S1_S1x1_1 bcast_S1x1_S800000x1_0_1 bcast_S_S800000x1
  -- the stages composed
  have eh : val_main_v46 (F := Ideal) x0 x1 x3 x4 x5 x6 x7 x8 x9
      = sageBN (meanOf (aggr x1 x0) (cnt x1)) x0 (transpose S128x128 [1, 0] x3 transposes_S128x128_S128x128_1_0)
          (transpose S128x128 [1, 0] x5 transposes_S128x128_S128x128_1_0) x4 x6 x7 x8 x9 := by
    rw [e46, e22]; rfl
  have ez : val_main_v73 (F := Ideal) x0 x1 x3 x4 x5 x6 x7 x8 x9 x10 x11 x12
      = sage (meanOf (aggr x1 (val_main_v46 (F := Ideal) x0 x1 x3 x4 x5 x6 x7 x8 x9)) (cnt x1)) (val_main_v46 (F := Ideal) x0 x1 x3 x4 x5 x6 x7 x8 x9)
          (transpose S128x64 [1, 0] x10 transposes_S64x128_S128x64_1_0)
          (transpose S128x64 [1, 0] x12 transposes_S64x128_S128x64_1_0) x11 := by
    rw [e73, e65]; rfl
  rw [e115, e104, e98]
  show outl (hid2 (hid1 (gi x2 (val_main_v73 (F := Ideal) x0 x1 x3 x4 x5 x6 x7 x8 x9 x10 x11 x12)) (gj x2 (val_main_v73 (F := Ideal) x0 x1 x3 x4 x5 x6 x7 x8 x9 x10 x11 x12))
      (top (transpose S128x64 [1, 0] x13 transposes_S64x128_S128x64_1_0))
      (bot (transpose S128x64 [1, 0] x13 transposes_S64x128_S128x64_1_0)) x14)
      (transpose S64x32 [1, 0] x15 transposes_S32x64_S64x32_1_0) x16)
      (transpose S32x1 [1, 0] x17 transposes_S1x32_S32x1_1_0) x18 = _
  rw [ez, eh]
  rfl

end Cert.ReferenceIdeal.RefValue

end
-- ==== Proof.Bridge.lean ====
/-
  The two programs take the same irregular steps.

  Both programs print the in-degree count, the gather along the edges' sources summed at the destinations, and the two
  row gathers of the pair stage as the same host operations on the same index chains (a row of the edge list, a negative
  index moved into range, the index vector as one column of start indices). Their shapes and dimension records are the
  same literals written in two places, so each pair of functions agrees by unfolding the names on both sides; no
  gather and no scatter is ever read at an index.
-/
import proofs.«100353_j30889404793607_2_alg».proof.Proof.RefValue
import proofs.«100353_j30889404793607_2_alg».proof.Proof.HostChains

noncomputable section

namespace Cert.Proof.Bridge

open Idealize.ShloMosaic Idealize.ShloMosaic.StableHlo

/-- The in-degrees: ones summed at the edges' destinations. -/
theorem cnt_eq (e : Cert.KernelIdeal.KValue.EdgeList) :
    Cert.ReferenceIdeal.RefValue.cnt e = Cert.KernelIdeal.KValue.cnt e := rfl

/-- The rows of a table gathered along the edges' sources and summed at their destinations. -/
theorem aggr_eq (e : Cert.KernelIdeal.KValue.EdgeList) :
    Cert.ReferenceIdeal.RefValue.aggr e = Cert.KernelIdeal.KValue.aggr e := rfl

/-- The rows of a table at the pairs' first ends. -/
theorem gi_eq (e : Cert.KernelIdeal.KValue.EdgeList) :
    Cert.ReferenceIdeal.RefValue.gi e = Cert.KernelIdeal.KValue.gat (Cert.KernelIdeal.KValue.row0 e) := rfl

/-- The rows of a table at the pairs' second ends. -/
theorem gj_eq (e : Cert.KernelIdeal.KValue.EdgeList) :
    Cert.ReferenceIdeal.RefValue.gj e = Cert.KernelIdeal.KValue.gat (Cert.KernelIdeal.KValue.row1 e) := rfl

end Cert.Proof.Bridge

end
-- ==== Proof.lean ====
/-
  The certificate: the three-stage network program against its plain reference, over the extended reals.

  * The three frame claims: the two printed programs' by their generated frame certificates, the reference's by its
    generated run with the result dropped.
  * Nothing was rewritten when the program was idealized, so there is nothing to preserve.
  * The value claim: both programs end with the specification's network function (`Spec.model`) of the argument arrays
    as their result — the staged program by `KValue.kernel_value` over its run with the result named, the reference by
    `RefValue.result_eq` over its generated run — and the irregular steps the function is stated over (the sums along
    the edges, the in-degrees, the rows at a pair's ends) are the same host operations in both programs.
-/
import proofs.«100353_j30889404793607_2_alg».proof.Defs
import proofs.«100353_j30889404793607_2_alg».proof.Proof.Gen.Kernel
import proofs.«100353_j30889404793607_2_alg».proof.Proof.Gen.Kernel.Skeleton
import proofs.«100353_j30889404793607_2_alg».proof.Proof.Gen.Kernel.Launch
import proofs.«100353_j30889404793607_2_alg».proof.Proof.Gen.Kernel.Points
import proofs.«100353_j30889404793607_2_alg».proof.Proof.Gen.Kernel.Frame
import proofs.«100353_j30889404793607_2_alg».proof.Proof.Gen.KernelIdeal
import proofs.«100353_j30889404793607_2_alg».proof.Proof.Gen.KernelIdeal.Skeleton
import proofs.«100353_j30889404793607_2_alg».proof.Proof.Gen.KernelIdeal.Launch
import proofs.«100353_j30889404793607_2_alg».proof.Proof.Gen.KernelIdeal.Points
import proofs.«100353_j30889404793607_2_alg».proof.Proof.Gen.KernelIdeal.Frame
import proofs.«100353_j30889404793607_2_alg».proof.Proof.Gen.ReferenceIdeal
import proofs.«100353_j30889404793607_2_alg».proof.Proof.Gen.ReferenceIdeal.Run
import proofs.«100353_j30889404793607_2_alg».proof.Proof.Gen.ReferenceIdeal.Read
import proofs.«100353_j30889404793607_2_alg».proof.Proof.Gen.Pre_finite_inputs
import proofs.«100353_j30889404793607_2_alg».proof.Proof.KernelRun
import proofs.«100353_j30889404793607_2_alg».proof.Proof.KernelValue
import proofs.«100353_j30889404793607_2_alg».proof.Proof.RefValue
import proofs.«100353_j30889404793607_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The staged program's run with its result at the specification's function of the argument arrays. -/
theorem run_k (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v74) = Cert.KernelIdeal.KValue.modelK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run Cert.KernelIdeal.defs _ _).mono
    (fun r h c => ⟨(h c).1.trans (Cert.KernelIdeal.KValue.kernel_value m ρ c), (h c).2⟩)
    (Cert.KernelIdeal.RunValue.run_value (F := Ideal) m ρ)

/-- Both programs end with `Spec.model` of the (agreeing) argument arrays. -/
theorem algebraic : Cert.algebraic_KernelIdeal_ReferenceIdeal := by
  intro m ρ m' ρ' _ hagree
  refine ⟨Cert.KernelIdeal.KValue.modelK m, run_k m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v115_eq, Cert.ReferenceIdeal.RefValue.result_eq,
    a0, a1, a2, a3, a4, a5, a6, a7, a8, a9, a10, a11, a12, a13, a14, a15, a16, a17, a18]
  have hc := Cert.Proof.Bridge.cnt_eq (m ((c.tc : Thread Cert.KernelIdeal.nD Cert.KernelIdeal.τ).loc Cert.KernelIdeal.main_arg1))
  have ha := Cert.Proof.Bridge.aggr_eq (m ((c.tc : Thread Cert.KernelIdeal.nD Cert.KernelIdeal.τ).loc Cert.KernelIdeal.main_arg1))
  have hi := Cert.Proof.Bridge.gi_eq (m ((c.tc : Thread Cert.KernelIdeal.nD Cert.KernelIdeal.τ).loc Cert.KernelIdeal.main_arg2))
  have hj := Cert.Proof.Bridge.gj_eq (m ((c.tc : Thread Cert.KernelIdeal.nD Cert.KernelIdeal.τ).loc Cert.KernelIdeal.main_arg2))
  rw [hc, ha, hi, hj]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
